-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S32768x896 : S_.BroadcastsInDim S32768x896 (![] : Fin 0 → Fin S32768x896.rank)
  reducesTo_S32768x896_S_d0_1 : S32768x896.ReducesTo [0, 1] S_
  bcast_S_S32768x1 : S_.BroadcastsInDim S32768x1 (![] : Fin 0 → Fin S32768x1.rank)
  reducesTo_S32768x1_S_d0_1 : S32768x1.ReducesTo [0, 1] S_
  bcast_S_S896x2688 : S_.BroadcastsInDim S896x2688 (![] : Fin 0 → Fin S896x2688.rank)
  reducesTo_S896x2688_S_d0_1 : S896x2688.ReducesTo [0, 1] S_
  bcast_S_S2x1344 : S_.BroadcastsInDim S2x1344 (![] : Fin 0 → Fin S2x1344.rank)
  reducesTo_S2x1344_S_d0_1 : S2x1344.ReducesTo [0, 1] S_
  bcast_S_S3x1344 : S_.BroadcastsInDim S3x1344 (![] : Fin 0 → Fin S3x1344.rank)
  reducesTo_S3x1344_S_d0_1 : S3x1344.ReducesTo [0, 1] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S448x256 : S_.BroadcastsInDim S448x256 (![] : Fin 0 → Fin S448x256.rank)
  reducesTo_S448x256_S_d0_1 : S448x256.ReducesTo [0, 1] S_
  bcast_S_S256 : S_.BroadcastsInDim S256 (![] : Fin 0 → Fin S256.rank)
  reducesTo_S256_S_d0 : S256.ReducesTo [0] S_
  bcast_S_S896 : S_.BroadcastsInDim S896 (![] : Fin 0 → Fin S896.rank)
  reducesTo_S896_S_d0 : S896.ReducesTo [0] S_

variable [Facts]

def fn_part4 {F : FTy → Type} [FloatOps F] (main_arg14 : FVec F S896 .f32) (main_arg15 : FVec F S896 .f32) (main_arg16 : FVec F S896 .f32) (main_v63 : IVec S_ 1) (main_v67 : IVec S_ 1) : IVec S_ 1 :=
  let main_v68 : IVec S_ 1 := andi main_v63 main_v67
  let main_v69 : FVec F S896 .f32 := Host.absf main_arg14
  let main_cst_26 : FVec F S_ .f32 := constant S_ .f32 0x7F800000#32
  let main_v70 : FVec F S896 .f32 := broadcastInDim S896 ![] bcast_S_S896 main_cst_26
  let main_v71 : IVec S896 1 := cmpf .olt main_v69 main_v70
  let main_c_27 : IVec S_ 1 := constantI S_ 1 1#1
  let main_v72 : IVec S_ 1 := (fun x v => Host.reduce IntOp.andi x v reducesTo_S896_S_d0 h_S_) main_v71 main_c_27
  let main_v73 : IVec S_ 1 := andi main_v68 main_v72
  let main_v74 : FVec F S896 .f32 := Host.absf main_arg15
  let main_cst_28 : FVec F S_ .f32 := constant S_ .f32 0x7F800000#32
  let main_v75 : FVec F S896 .f32 := broadcastInDim S896 ![] bcast_S_S896 main_cst_28
  let main_v76 : IVec S896 1 := cmpf .olt main_v74 main_v75
  let main_c_29 : IVec S_ 1 := constantI S_ 1 1#1
  let main_v77 : IVec S_ 1 := (fun x v => Host.reduce IntOp.andi x v reducesTo_S896_S_d0 h_S_) main_v76 main_c_29
  let main_v78 : IVec S_ 1 := andi main_v73 main_v77
  let main_v79 : FVec F S896 .f32 := Host.absf main_arg16
  let main_cst_30 : FVec F S_ .f32 := constant S_ .f32 0x7F800000#32
  let main_v80 : FVec F S896 .f32 := broadcastInDim S896 ![] bcast_S_S896 main_cst_30
  let main_v81 : IVec S896 1 := cmpf .olt main_v79 main_v80
  let main_c_31 : IVec S_ 1 := constantI S_ 1 1#1
  let main_v82 : IVec S_ 1 := (fun x v => Host.reduce IntOp.andi x v reducesTo_S896_S_d0 h_S_) main_v81 main_c_31
  let main_v83 : IVec S_ 1 := andi main_v78 main_v82
  main_v83

def fn_part3 {F : FTy → Type} [FloatOps F] (main_arg11 : FVec F S448 .f32) (main_arg12 : FVec F S448x256 .f32) (main_arg13 : FVec F S256 .f32) (main_arg14 : FVec F S896 .f32) (main_arg15 : FVec F S896 .f32) (main_arg16 : FVec F S896 .f32) (main_v48 : IVec S_ 1) (main_v49 : FVec F S448x448 .f32) (main_v50 : FVec F S448x448 .f32) : IVec S_ 1 :=
  let main_v51 : IVec S448x448 1 := cmpf .olt main_v49 main_v50
  let main_c_19 : IVec S_ 1 := constantI S_ 1 1#1
  let main_v52 : IVec S_ 1 := (fun x v => Host.reduce IntOp.andi x v reducesTo_S448x448_S_d0_1 h_S_) main_v51 main_c_19
  let main_v53 : IVec S_ 1 := andi main_v48 main_v52
  let main_v54 : FVec F S448 .f32 := Host.absf main_arg11
  let main_cst_20 : FVec F S_ .f32 := constant S_ .f32 0x7F800000#32
  let main_v55 : FVec F S448 .f32 := broadcastInDim S448 ![] bcast_S_S448 main_cst_20
  let main_v56 : IVec S448 1 := cmpf .olt main_v54 main_v55
  let main_c_21 : IVec S_ 1 := constantI S_ 1 1#1
  let main_v57 : IVec S_ 1 := (fun x v => Host.reduce IntOp.andi x v reducesTo_S448_S_d0 h_S_) main_v56 main_c_21
  let main_v58 : IVec S_ 1 := andi main_v53 main_v57
  let main_v59 : FVec F S448x256 .f32 := Host.absf main_arg12
  let main_cst_22 : FVec F S_ .f32 := constant S_ .f32 0x7F800000#32
  let main_v60 : FVec F S448x256 .f32 := broadcastInDim S448x256 ![] bcast_S_S448x256 main_cst_22
  let main_v61 : IVec S448x256 1 := cmpf .olt main_v59 main_v60
  let main_c_23 : IVec S_ 1 := constantI S_ 1 1#1
  let main_v62 : IVec S_ 1 := (fun x v => Host.reduce IntOp.andi x v reducesTo_S448x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_v63 main_v67

def fn_part2 {F : FTy → Type} [FloatOps F] (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) (main_v33 : IVec S_ 1) : IVec S_ 1 :=
  let main_v34 : FVec F S448 .f32 := Host.absf main_arg7
  let main_cst_12 : FVec F S_ .f32 := constant S_ .f32 0x7F800000#32
  let main_v35 : FVec F S448 .f32 := broadcastInDim S448 ![] bcast_S_S448 main_cst_12
  let main_v36 : IVec S448 1 := cmpf .olt main_v34 main_v35
  let main_c_13 : IVec S_ 1 := constantI S_ 1 1#1
  let main_v37 : IVec S_ 1 := (fun x v => Host.reduce IntOp.andi x v reducesTo_S448_S_d0 h_S_) main_v36 main_c_13
  let main_v38 : IVec S_ 1 := andi main_v33 main_v37
  let main_v39 : FVec F S448x256 .f32 := Host.absf main_arg8
  let main_cst_14 : FVec F S_ .f32 := constant S_ .f32 0x7F800000#32
  let main_v40 : FVec F S448x256 .f32 := broadcastInDim S448x256 ![] bcast_S_S448x256 main_cst_14
  let main_v41 : IVec S448x256 1 := cmpf .olt main_v39 main_v40
  let main_c_15 : IVec S_ 1 := constantI S_ 1 1#1
  let main_v42 : IVec S_ 1 := (fun x v => Host.reduce IntOp.andi x v reducesTo_S448x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S448x448 .f32 := Host.absf main_arg10
  let main_cst_18 : FVec F S_ .f32 := constant S_ .f32 0x7F800000#32
  let main_v50 : FVec F S448x448 .f32 := broadcastInDim S448x448 ![] bcast_S_S448x448 main_cst_18
  fn_part3 (F := F) main_arg11 main_arg12 main_arg13 main_arg14 main_arg15 main_arg16 main_v48 main_v49 main_v50

def fn_part1 {F : FTy → Type} [FloatOps F] (main_arg4 : FVec F S2x1344 .f32) (main_arg5 : FVec F S3x1344 .f32) (main_arg6 : FVec F S448x448 .f32) (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) (main_v13 : IVec S_ 1) (main_v16 : IVec S896x2688 1) : IVec S_ 1 :=
  let main_c_5 : IVec S_ 1 := constantI S_ 1 1#1
  let main_v17 : IVec S_ 1 := (fun x v => Host.reduce IntOp.andi x v reducesTo_S896x2688_S_d0_1 h_S_) main_v16 main_c_5
  let main_v18 : IVec S_ 1 := andi main_v13 main_v17
  let main_v19 : FVec F S2x1344 .f32 := Host.absf main_arg4
  let main_cst_6 : FVec F S_ .f32 := constant S_ .f32 0x7F800000#32
  let main_v20 : FVec F S2x1344 .f32 := broadcastInDim S2x1344 ![] bcast_S_S2x1344 main_cst_6
  let main_v21 : IVec S2x1344 1 := cmpf .olt main_v19 main_v20
  let main_c_7 : IVec S_ 1 := constantI S_ 1 1#1
  let main_v22 : IVec S_ 1 := (fun x v => Host.reduce IntOp.andi x v reducesTo_S2x1344_S_d0_1 h_S_) main_v21 main_c_7
  let main_v23 : IVec S_ 1 := andi main_v18 main_v22
  let main_v24 : FVec F S3x1344 .f32 := Host.absf main_arg5
  let main_cst_8 : FVec F S_ .f32 := constant S_ .f32 0x7F800000#32
  let main_v25 : FVec F S3x1344 .f32 := broadcastInDim S3x1344 ![] bcast_S_S3x1344 main_cst_8
  let main_v26 : IVec S3x1344 1 := cmpf .olt main_v24 main_v25
  let main_c_9 : IVec S_ 1 := constantI S_ 1 1#1
  let main_v27 : IVec S_ 1 := (fun x v => Host.reduce IntOp.andi x v reducesTo_S3x1344_S_d0_1 h_S_) main_v26 main_c_9
  let main_v28 : IVec S_ 1 := andi main_v23 main_v27
  let main_v29 : FVec F S448x448 .f32 := Host.absf main_arg6
  let main_cst_10 : FVec F S_ .f32 := constant S_ .f32 0x7F800000#32
  let main_v30 : FVec F S448x448 .f32 := broadcastInDim S448x448 ![] bcast_S_S448x448 main_cst_10
  let main_v31 : IVec S448x448 1 := cmpf .olt main_v29 main_v30
  let main_c_11 : IVec S_ 1 := constantI S_ 1 1#1
  let main_v32 : IVec S_ 1 := (fun x v => Host.reduce IntOp.andi x v reducesTo_S448x448_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S32768x2 .f32) (main_arg1 : FVec F S32768x896 .f32) (main_arg2 : FVec F S32768x1 .f32) (main_arg3 : FVec F S896x2688 .f32) (main_arg4 : FVec F S2x1344 .f32) (main_arg5 : FVec F S3x1344 .f32) (main_arg6 : FVec F S448x448 .f32) (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S32768x896 .f32 := Host.absf main_arg1
  let main_cst_0 : FVec F S_ .f32 := constant S_ .f32 0x7F800000#32
  let main_v5 : FVec F S32768x896 .f32 := broadcastInDim S32768x896 ![] bcast_S_S32768x896 main_cst_0
  let main_v6 : IVec S32768x896 1 := cmpf .olt main_v4 main_v5
  let main_c_1 : IVec S_ 1 := constantI S_ 1 1#1
  let main_v7 : IVec S_ 1 := (fun x v => Host.reduce IntOp.andi x v reducesTo_S32768x896_S_d0_1 h_S_) main_v6 main_c_1
  let main_v8 : IVec S_ 1 := andi main_v3 main_v7
  let main_v9 : FVec F S32768x1 .f32 := Host.absf main_arg2
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  let main_v14 : FVec F S896x2688 .f32 := Host.absf main_arg3
  let main_cst_4 : FVec F S_ .f32 := constant S_ .f32 0x7F800000#32
  let main_v15 : FVec F S896x2688 .f32 := broadcastInDim S896x2688 ![] bcast_S_S896x2688 main_cst_4
  let main_v16 : IVec S896x2688 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S32768x3 : Shape := ⟨2, ![32768, 3]⟩
abbrev S32768x256 : Shape := ⟨2, ![32768, 256]⟩
abbrev S512x3 : Shape := ⟨2, ![512, 3]⟩
abbrev S512x896 : Shape := ⟨2, ![512, 896]⟩
abbrev S512x256 : Shape := ⟨2, ![512, 256]⟩
abbrev S512x2688 : Shape := ⟨2, ![512, 2688]⟩
abbrev S512x1 : Shape := ⟨2, ![512, 1]⟩
abbrev S1x1344 : Shape := ⟨2, ![1, 1344]⟩
abbrev S512x1344 : Shape := ⟨2, ![512, 1344]⟩
abbrev S512x448 : Shape := ⟨2, ![512, 448]⟩
abbrev S1x448 : Shape := ⟨2, ![1, 448]⟩
abbrev S1x256 : Shape := ⟨2, ![1, 256]⟩

abbrev nBuf : Space → Nat
  | .hbm => 26
  | .vmem => 24
  | .smem => 0
  | _ => 0

abbrev bufTy : (tb : Table) → Fin (tcTables nBuf tb) → BufTy
  | .hbm, ⟨0, _⟩ => ⟨S32768x2, .f32⟩
  | .hbm, ⟨1, _⟩ => ⟨S32768x896, .f32⟩
  | .hbm, ⟨2, _⟩ => ⟨S32768x1, .f32⟩
  | .hbm, ⟨3, _⟩ => ⟨S896x2688, .f32⟩
  | .hbm, ⟨4, _⟩ => ⟨S2x1344, .f32⟩
  | .hbm, ⟨5, _⟩ => ⟨S3x1344, .f32⟩
  | .hbm, ⟨6, _⟩ => ⟨S448x448, .f32⟩
  | .hbm, ⟨7, _⟩ => ⟨S448, .f32⟩
  | .hbm, ⟨8, _⟩ => ⟨S448x256, .f32⟩
  | .hbm, ⟨9, _⟩ => ⟨S256, .f32⟩
  | .hbm, ⟨10, _⟩ => ⟨S448x448, .f32⟩
  | .hbm, ⟨11, _⟩ => ⟨S448, .f32⟩
  | .hbm, ⟨12, _⟩ => ⟨S448x256, .f32⟩
  | .hbm, ⟨13, _⟩ => ⟨S256, .f32⟩
  | .hbm, ⟨14, _⟩ => ⟨S896, .f32⟩
  | .hbm, ⟨15, _⟩ => ⟨S896, .f32⟩
  | .hbm, ⟨16, _⟩ => ⟨S896, .f32⟩
  | .hbm, ⟨17, _⟩ => ⟨S32768x3, .f32⟩
  | .hbm, ⟨18, _⟩ => ⟨S896x2688, .bf16⟩
  | .hbm, ⟨19, _⟩ => ⟨S448x448, .bf16⟩
  | .hbm, ⟨20, _⟩ => ⟨S448x256, .bf16⟩
  | .hbm, ⟨21, _⟩ => ⟨S448x448, .bf16⟩
  | .hbm, ⟨22, _⟩ => ⟨S448x256, .bf16⟩
  | .hbm, ⟨23, _⟩ => ⟨S32768x256, .f32⟩
  | .hbm, ⟨24, _⟩ => ⟨S32768x256, .f32⟩
  | .hbm, ⟨25, _⟩ => ⟨S32768x896, .f32⟩
  | .local _ .vmem, ⟨0, _⟩ => ⟨S512x3, .f32⟩
  | .local _ .vmem, ⟨1, _⟩ => ⟨S512x3, .f32⟩
  | .local _ .vmem, ⟨2, _⟩ => ⟨S512x896, .f32⟩
  | .local _ .vmem, ⟨3, _⟩ => ⟨S512x896, .f32⟩
  | .local _ .vmem, ⟨4, _⟩ => ⟨S896x2688, .bf16⟩
  | .local _ .vmem, ⟨5, _⟩ => ⟨S2x1344, .f32⟩
  | .local _ .vmem, ⟨6, _⟩ => ⟨S3x1344, .f32⟩
  | .local _ .vmem, ⟨7, _⟩ => ⟨S448x448, .bf16⟩
  | .local _ .vmem, ⟨8, _⟩ => ⟨S448, .f32⟩
  | .local _ .vmem, ⟨9, _⟩ => ⟨S448x256, .bf16⟩
  | .local _ .vmem, ⟨10, _⟩ => ⟨S256, .f32⟩
  | .local _ .vmem, ⟨11, _⟩ => ⟨S448x448, .bf16⟩
  | .local _ .vmem, ⟨12, _⟩ => ⟨S448, .f32⟩
  | .local _ .vmem, ⟨13, _⟩ => ⟨S448x256, .bf16⟩
  | .local _ .vmem, ⟨14, _⟩ => ⟨S256, .f32⟩
  | .local _ .vmem, ⟨15, _⟩ => ⟨S896, .f32⟩
  | .local _ .vmem, ⟨16, _⟩ => ⟨S896, .f32⟩
  | .local _ .vmem, ⟨17, _⟩ => ⟨S896, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x896, .f32⟩
  | .local _ .vmem, ⟨23, _⟩ => ⟨S512x896, .f32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1344 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1344 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S448x448 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S448 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S448x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S448x448 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S448 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S448x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S896 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S896 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S896 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x896 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  concatenates_S32768x2_S32768x1_S32768x3_d1 : Shape.Concatenates [S32768x2, S32768x1] S32768x3 1
  bitsLt_bf16_f32 : FTy.bits .bf16 < FTy.bits .f32
  inb_S512x896_S512x896_0_0 : ∀ a, (![0, 0] : Fin 2 → Nat) a + S512x896.size a ≤ S512x896.size a
  h_S512x896 : 0 < S512x896.numel
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S896x2688_S896x2688_0_0 : ∀ a, (![0, 0] : Fin 2 → Nat) a + S896x2688.size a ≤ S896x2688.size a
  h_S896x2688 : 0 < S896x2688.numel
  shapeCasts_S896x2688_S896x2688 : S896x2688.ShapeCasts S896x2688
  slices_S512x3_o0_0_S512x1 : S512x3.Slices ![0, 0] S512x1
  slices_S512x3_o0_1_S512x1 : S512x3.Slices ![0, 1] S512x1
  slices_S512x3_o0_2_S512x1 : S512x3.Slices ![0, 2] S512x1
  inb_S2x1344_S1x1344_0_0 : ∀ a, (![0, 0] : Fin 2 → Nat) a + S1x1344.size a ≤ S2x1344.size a
  h_S1x1344 : 0 < S1x1344.numel
  inb_S2x1344_S1x1344_1_0 : ∀ a, (![1, 0] : Fin 2 → Nat) a + S1x1344.size a ≤ S2x1344.size a
  broadcasts_S512x1_S512x1344 : S512x1.Broadcasts S512x1344
  broadcasts_S1x1344_S512x1344 : S1x1344.Broadcasts S512x1344
  inb_S3x1344_S1x1344_0_0 : ∀ a, (![0, 0] : Fin 2 → Nat) a + S1x1344.size a ≤ S3x1344.size a
  inb_S3x1344_S1x1344_1_0 : ∀ a, (![1, 0] : Fin 2 → Nat) a + S1x1344.size a ≤ S3x1344.size a
  inb_S3x1344_S1x1344_2_0 : ∀ a, (![2, 0] : Fin 2 → Nat) a + S1x1344.size a ≤ S3x1344.size a
  inb_S896_S896_0 : ∀ a, (![0] : Fin 1 → Nat) a + S896.size a ≤ S896.size a
  h_S896 : 0 < S896.numel
  slices_S512x2688_o0_0_S512x448 : S512x2688.Slices ![0, 0] S512x448
  slices_S512x2688_o0_448_S512x448 : S512x2688.Slices ![0, 448] S512x448
  slices_S512x2688_o0_896_S512x448 : S512x2688.Slices ![0, 896] S512x448
  slices_S512x2688_o0_1344_S512x448 : S512x2688.Slices ![0, 1344] S512x448
  slices_S512x2688_o0_1792_S512x448 : S512x2688.Slices ![0, 1792] S512x448
  slices_S512x2688_o0_2240_S512x448 : S512x2688.Slices ![0, 2240] S512x448
  slices_S512x1344_o0_0_S512x448 : S512x1344.Slices ![0, 0] S512x448
  slices_S512x1344_o0_448_S512x448 : S512x1344.Slices ![0, 448] S512x448
  slices_S512x1344_o0_896_S512x448 : S512x1344.Slices ![0, 896] S512x448
  slices_S896_o0_S448 : S896.Slices ![0] S448
  slices_S896_o448_S448 : S896.Slices ![448] S448
  shapeCasts_S448_S1x448 : S448.ShapeCasts S1x448
  broadcasts_S1x448_S512x448 : S1x448.Broadcasts S512x448
  slices_S512x896_o0_0_S512x448 : S512x896.Slices ![0, 0] S512x448
  slices_S512x896_o0_448_S512x448 : S512x896.Slices ![0, 448] S512x448
  inb_S512x896_S512x448_0_0 : ∀ a, (![0, 0] : Fin 2 → Nat) a + S512x448.size a ≤ S512x896.size a
  h_S512x448 : 0 < S512x448.numel
  inb_S512x896_S512x448_0_448 : ∀ a, (![0, 448] : Fin 2 → Nat) a + S512x448.size a ≤ S512x896.size a
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S448_S448_0 : ∀ a, (![0] : Fin 1 → Nat) a + S448.size a ≤ S448.size a
  h_S448 : 0 < S448.numel
  inb_S448x256_S448x256_0_0 : ∀ a, (![0, 0] : Fin 2 → Nat) a + S448x256.size a ≤ S448x256.size a
  h_S448x256 : 0 < S448x256.numel
  shapeCasts_S448x256_S448x256 : S448x256.ShapeCasts S448x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x896_S896x2688_S512x2688_1_0_0_1_n_n_wf : DotDims.WF S512x896 S896x2688 S512x2688 [1] [0] [0] [1] [] []
  dot_S512x448_S448x448_S512x448_1_0_0_1_n_n_wf : DotDims.WF S512x448 S448x448 S512x448 [1] [0] [0] [1] [] []
  dot_S512x448_S448x256_S512x256_1_0_0_1_n_n_wf : DotDims.WF S512x448 S448x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S32768x3.size a
  hwx0_0 : ∀ i : grid0.Coords, EltTy.bits .f32 = 32 ∨ (Rect.block (s := S32768x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x896.size a ≤ S32768x896.size a
  hwx0_1 : ∀ i : grid0.Coords, EltTy.bits .f32 = 32 ∨ (Rect.block (s := S32768x896) S512x896.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S896x2688.size a ≤ S896x2688.size a
  hwx0_2 : ∀ i : grid0.Coords, EltTy.bits .bf16 = 32 ∨ (Rect.block (s := S896x2688) S896x2688.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1344.size a ≤ S2x1344.size a
  hwx0_3 : ∀ i : grid0.Coords, EltTy.bits .f32 = 32 ∨ (Rect.block (s := S2x1344) S2x1344.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1344.size a ≤ S3x1344.size a
  hwx0_4 : ∀ i : grid0.Coords, EltTy.bits .f32 = 32 ∨ (Rect.block (s := S3x1344) S3x1344.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S448x448.size a ≤ S448x448.size a
  hwx0_5 : ∀ i : grid0.Coords, EltTy.bits .bf16 = 32 ∨ (Rect.block (s := S448x448) S448x448.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S448.size a ≤ S448.size a
  hwx0_6 : ∀ i : grid0.Coords, EltTy.bits .f32 = 32 ∨ (Rect.block (s := S448) S448.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S448x256.size a ≤ S448x256.size a
  hwx0_7 : ∀ i : grid0.Coords, EltTy.bits .bf16 = 32 ∨ (Rect.block (s := S448x256) S448x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S448x448.size a ≤ S448x448.size a
  hwx0_9 : ∀ i : grid0.Coords, EltTy.bits .bf16 = 32 ∨ (Rect.block (s := S448x448) S448x448.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S448.size a ≤ S448.size a
  hwx0_10 : ∀ i : grid0.Coords, EltTy.bits .f32 = 32 ∨ (Rect.block (s := S448) S448.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S448x256.size a ≤ S448x256.size a
  hwx0_11 : ∀ i : grid0.Coords, EltTy.bits .bf16 = 32 ∨ (Rect.block (s := S448x256) S448x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S896.size a ≤ S896.size a
  hwx0_13 : ∀ i : grid0.Coords, EltTy.bits .f32 = 32 ∨ (Rect.block (s := S896) S896.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S896.size a ≤ S896.size a
  hwx0_14 : ∀ i : grid0.Coords, EltTy.bits .f32 = 32 ∨ (Rect.block (s := S896) S896.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S896.size a ≤ S896.size a
  hwx0_15 : ∀ i : grid0.Coords, EltTy.bits .f32 = 32 ∨ (Rect.block (s := S896) S896.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S32768x256.size a
  hwx0_16 : ∀ i : grid0.Coords, EltTy.bits .f32 = 32 ∨ (Rect.block (s := S32768x256) S512x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S32768x256.size a
  hwx0_17 : ∀ i : grid0.Coords, EltTy.bits .f32 = 32 ∨ (Rect.block (s := S32768x256) S512x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x896.size a ≤ S32768x896.size a
  hwx0_18 : ∀ i : grid0.Coords, EltTy.bits .f32 = 32 ∨ (Rect.block (s := S32768x896) S512x896.size (cc0_transform_18 i) (hinb0_18 i)).WholeWords (EltTy.packing .f32)

variable [Facts₀]

def dot_S512x896_S896x2688_S512x2688_1_0_0_1_n_n : DotDims S512x896 S896x2688 S512x2688 where
  lhsContracting := [1]
  rhsContracting := [0]
  lhsNonContracting := [0]
  rhsNonContracting := [1]
  lhsBatch := []
  rhsBatch := []
  wf := dot_S512x896_S896x2688_S512x2688_1_0_0_1_n_n_wf
def dot_S512x448_S448x448_S512x448_1_0_0_1_n_n : DotDims S512x448 S448x448 S512x448 where
  lhsContracting := [1]
  rhsContracting := [0]
  lhsNonContracting := [0]
  rhsNonContracting := [1]
  lhsBatch := []
  rhsBatch := []
  wf := dot_S512x448_S448x448_S512x448_1_0_0_1_n_n_wf
def dot_S512x448_S448x256_S512x256_1_0_0_1_n_n : DotDims S512x448 S448x256 S512x256 where
  lhsContracting := [1]
  rhsContracting := [0]
  lhsNonContracting := [0]
  rhsNonContracting := [1]
  lhsBatch := []
  rhsBatch := []
  wf := dot_S512x448_S448x256_S512x256_1_0_0_1_n_n_wf

abbrev win0_0 : Pipeline.Window sig grid0 :=
  Pipeline.Window.ofSpec (Memref.whole main_v0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S896x2688.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x1344.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3x1344.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S448x448.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S448.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S448x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S448x448.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S448.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S448x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S896.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S896.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S896.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6_0) S512x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v6_1) S512x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v6_2) S512x896.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S32768x2688 : Shape := ⟨2, ![32768, 2688]⟩
abbrev S32768x1344 : Shape := ⟨2, ![32768, 1344]⟩
abbrev S32768x448 : Shape := ⟨2, ![32768, 448]⟩
abbrev S32768x3 : Shape := ⟨2, ![32768, 3]⟩
abbrev S1x896 : Shape := ⟨2, ![1, 896]⟩
abbrev S_ : Shape := ⟨0, ![]⟩
abbrev S1x448 : Shape := ⟨2, ![1, 448]⟩
abbrev S32768x256 : Shape := ⟨2, ![32768, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S32768x896, .f32⟩
  | .hbm, ⟨2, _⟩ => ⟨S32768x1, .f32⟩
  | .hbm, ⟨3, _⟩ => ⟨S896x2688, .f32⟩
  | .hbm, ⟨4, _⟩ => ⟨S2x1344, .f32⟩
  | .hbm, ⟨5, _⟩ => ⟨S3x1344, .f32⟩
  | .hbm, ⟨6, _⟩ => ⟨S448x448, .f32⟩
  | .hbm, ⟨7, _⟩ => ⟨S448, .f32⟩
  | .hbm, ⟨8, _⟩ => ⟨S448x256, .f32⟩
  | .hbm, ⟨9, _⟩ => ⟨S256, .f32⟩
  | .hbm, ⟨10, _⟩ => ⟨S448x448, .f32⟩
  | .hbm, ⟨11, _⟩ => ⟨S448, .f32⟩
  | .hbm, ⟨12, _⟩ => ⟨S448x256, .f32⟩
  | .hbm, ⟨13, _⟩ => ⟨S256, .f32⟩
  | .hbm, ⟨14, _⟩ => ⟨S896, .f32⟩
  | .hbm, ⟨15, _⟩ => ⟨S896, .f32⟩
  | .hbm, ⟨16, _⟩ => ⟨S896, .f32⟩
  | .hbm, ⟨17, _⟩ => ⟨S32768x2688, .f32⟩
  | .hbm, ⟨18, _⟩ => ⟨S32768x896, .f32⟩
  | .hbm, ⟨19, _⟩ => ⟨S32768x896, .f32⟩
  | .hbm, ⟨20, _⟩ => ⟨S32768x896, .f32⟩
  | .hbm, ⟨21, _⟩ => ⟨S32768x1344, .f32⟩
  | .hbm, ⟨22, _⟩ => ⟨S32768x448, .f32⟩
  | .hbm, ⟨23, _⟩ => ⟨S32768x448, .f32⟩
  | .hbm, ⟨24, _⟩ => ⟨S32768x448, .f32⟩
  | .hbm, ⟨25, _⟩ => ⟨S32768x3, .f32⟩
  | .hbm, ⟨26, _⟩ => ⟨S32768x1344, .f32⟩
  | .hbm, ⟨27, _⟩ => ⟨S32768x448, .f32⟩
  | .hbm, ⟨28, _⟩ => ⟨S32768x448, .f32⟩
  | .hbm, ⟨29, _⟩ => ⟨S32768x448, .f32⟩
  | .hbm, ⟨30, _⟩ => ⟨S32768x896, .f32⟩
  | .hbm, ⟨31, _⟩ => ⟨S32768x896, .f32⟩
  | .hbm, ⟨32, _⟩ => ⟨S32768x896, .f32⟩
  | .hbm, ⟨33, _⟩ => ⟨S32768x896, .f32⟩
  | .hbm, ⟨34, _⟩ => ⟨S1x896, .f32⟩
  | .hbm, ⟨35, _⟩ => ⟨S32768x896, .f32⟩
  | .hbm, ⟨36, _⟩ => ⟨S32768x896, .f32⟩
  | .hbm, ⟨37, _⟩ => ⟨S32768x896, .f32⟩
  | .hbm, ⟨38, _⟩ => ⟨S32768x896, .f32⟩
  | .hbm, ⟨39, _⟩ => ⟨S_, .f32⟩
  | .hbm, ⟨40, _⟩ => ⟨S32768x896, .f32⟩
  | .hbm, ⟨41, _⟩ => ⟨S32768x896, .f32⟩
  | .hbm, ⟨42, _⟩ => ⟨S_, .f32⟩
  | .hbm, ⟨43, _⟩ => ⟨S32768x896, .f32⟩
  | .hbm, ⟨44, _⟩ => ⟨S32768x896, .f32⟩
  | .hbm, ⟨45, _⟩ => ⟨S32768x896, .f32⟩
  | .hbm, ⟨46, _⟩ => ⟨S1x896, .f32⟩
  | .hbm, ⟨47, _⟩ => ⟨S32768x896, .f32⟩
  | .hbm, ⟨48, _⟩ => ⟨S32768x896, .f32⟩
  | .hbm, ⟨49, _⟩ => ⟨S32768x896, .f32⟩
  | .hbm, ⟨50, _⟩ => ⟨S32768x896, .f32⟩
  | .hbm, ⟨51, _⟩ => ⟨S_, .f32⟩
  | .hbm, ⟨52, _⟩ => ⟨S32768x896, .f32⟩
  | .hbm, ⟨53, _⟩ => ⟨S32768x896, .f32⟩
  | .hbm, ⟨54, _⟩ => ⟨S_, .f32⟩
  | .hbm, ⟨55, _⟩ => ⟨S32768x896, .f32⟩
  | .hbm, ⟨56, _⟩ => ⟨S32768x896, .f32⟩
  | .hbm, ⟨57, _⟩ => ⟨S32768x896, .f32⟩
  | .hbm, ⟨58, _⟩ => ⟨S32768x896, .f32⟩
  | .hbm, ⟨59, _⟩ => ⟨S1x896, .f32⟩
  | .hbm, ⟨60, _⟩ => ⟨S32768x896, .f32⟩
  | .hbm, ⟨61, _⟩ => ⟨S32768x896, .f32⟩
  | .hbm, ⟨62, _⟩ => ⟨S32768x896, .f32⟩
  | .hbm, ⟨63, _⟩ => ⟨S32768x896, .f32⟩
  | .hbm, ⟨64, _⟩ => ⟨S_, .f32⟩
  | .hbm, ⟨65, _⟩ => ⟨S32768x896, .f32⟩
  | .hbm, ⟨66, _⟩ => ⟨S32768x896, .f32⟩
  | .hbm, ⟨67, _⟩ => ⟨S32768x896, .f32⟩
  | .hbm, ⟨68, _⟩ => ⟨S32768x896, .f32⟩
  | .hbm, ⟨69, _⟩ => ⟨S32768x448, .f32⟩
  | .hbm, ⟨70, _⟩ => ⟨S32768x448, .f32⟩
  | .hbm, ⟨71, _⟩ => ⟨S32768x448, .f32⟩
  | .hbm, ⟨72, _⟩ => ⟨S1x448, .f32⟩
  | .hbm, ⟨73, _⟩ => ⟨S32768x448, .f32⟩
  | .hbm, ⟨74, _⟩ => ⟨S32768x448, .f32⟩
  | .hbm, ⟨75, _⟩ => ⟨S_, .f32⟩
  | .hbm, ⟨76, _⟩ => ⟨S32768x448, .f32⟩
  | .hbm, ⟨77, _⟩ => ⟨S32768x448, .f32⟩
  | .hbm, ⟨78, _⟩ => ⟨S32768x256, .f32⟩
  | .hbm, ⟨79, _⟩ => ⟨S1x256, .f32⟩
  | .hbm, ⟨80, _⟩ => ⟨S32768x256, .f32⟩
  | .hbm, ⟨81, _⟩ => ⟨S32768x256, .f32⟩
  | .hbm, ⟨82, _⟩ => ⟨S32768x448, .f32⟩
  | .hbm, ⟨83, _⟩ => ⟨S1x448, .f32⟩
  | .hbm, ⟨84, _⟩ => ⟨S32768x448, .f32⟩
  | .hbm, ⟨85, _⟩ => ⟨S32768x448, .f32⟩
  | .hbm, ⟨86, _⟩ => ⟨S_, .f32⟩
  | .hbm, ⟨87, _⟩ => ⟨S32768x448, .f32⟩
  | .hbm, ⟨88, _⟩ => ⟨S32768x448, .f32⟩
  | .hbm, ⟨89, _⟩ => ⟨S32768x256, .f32⟩
  | .hbm, ⟨90, _⟩ => ⟨S1x256, .f32⟩
  | .hbm, ⟨91, _⟩ => ⟨S32768x256, .f32⟩
  | .hbm, ⟨92, _⟩ => ⟨S32768x256, .f32⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S32768x2688_S32768x896_0_0 : S32768x2688.Slices ![0, 0] S32768x896
  slices_S32768x2688_S32768x896_0_896 : S32768x2688.Slices ![0, 896] S32768x896
  slices_S32768x2688_S32768x896_0_1792 : S32768x2688.Slices ![0, 1792] S32768x896
  slices_S32768x1344_S32768x448_0_0 : S32768x1344.Slices ![0, 0] S32768x448
  slices_S32768x1344_S32768x448_0_448 : S32768x1344.Slices ![0, 448] S32768x448
  slices_S32768x1344_S32768x448_0_896 : S32768x1344.Slices ![0, 896] S32768x448
  concatenates_S32768x2_S32768x1_S32768x3_d1 : Shape.Concatenates [S32768x2, S32768x1] S32768x3 1
  concatenates_S32768x448_S32768x448_S32768x896_d1 : Shape.Concatenates [S32768x448, S32768x448] S32768x896 1
  bcast_S896_S1x896_1 : S896.BroadcastsInDim S1x896 (![1] : Fin 1 → Fin S1x896.rank)
  bcast_S1x896_S32768x896_0_1 : S1x896.BroadcastsInDim S32768x896 (![0, 1] : Fin 2 → Fin S32768x896.rank)
  bcast_S_S32768x896 : S_.BroadcastsInDim S32768x896 (![] : Fin 0 → Fin S32768x896.rank)
  slices_S32768x896_S32768x448_0_0 : S32768x896.Slices ![0, 0] S32768x448
  slices_S32768x896_S32768x448_0_448 : S32768x896.Slices ![0, 448] S32768x448
  bcast_S448_S1x448_1 : S448.BroadcastsInDim S1x448 (![1] : Fin 1 → Fin S1x448.rank)
  bcast_S1x448_S32768x448_0_1 : S1x448.BroadcastsInDim S32768x448 (![0, 1] : Fin 2 → Fin S32768x448.rank)
  bcast_S_S32768x448 : S_.BroadcastsInDim S32768x448 (![] : Fin 0 → Fin S32768x448.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x896_S896x2688_S32768x2688_1_0_0_1_n_n_wf : DotDims.WF S32768x896 S896x2688 S32768x2688 [1] [0] [0] [1] [] []
  dot_S32768x2_S2x1344_S32768x1344_1_0_0_1_n_n_wf : DotDims.WF S32768x2 S2x1344 S32768x1344 [1] [0] [0] [1] [] []
  dot_S32768x3_S3x1344_S32768x1344_1_0_0_1_n_n_wf : DotDims.WF S32768x3 S3x1344 S32768x1344 [1] [0] [0] [1] [] []
  dot_S32768x448_S448x448_S32768x448_1_0_0_1_n_n_wf : DotDims.WF S32768x448 S448x448 S32768x448 [1] [0] [0] [1] [] []
  dot_S32768x448_S448x256_S32768x256_1_0_0_1_n_n_wf : DotDims.WF S32768x448 S448x256 S32768x256 [1] [0] [0] [1] [] []

variable [Facts₀]

def dot_S32768x896_S896x2688_S32768x2688_1_0_0_1_n_n : DotDims S32768x896 S896x2688 S32768x2688 where
  lhsContracting := [1]
  rhsContracting := [0]
  lhsNonContracting := [0]
  rhsNonContracting := [1]
  lhsBatch := []
  rhsBatch := []
  wf := dot_S32768x896_S896x2688_S32768x2688_1_0_0_1_n_n_wf
def dot_S32768x2_S2x1344_S32768x1344_1_0_0_1_n_n : DotDims S32768x2 S2x1344 S32768x1344 where
  lhsContracting := [1]
  rhsContracting := [0]
  lhsNonContracting := [0]
  rhsNonContracting := [1]
  lhsBatch := []
  rhsBatch := []
  wf := dot_S32768x2_S2x1344_S32768x1344_1_0_0_1_n_n_wf
def dot_S32768x3_S3x1344_S32768x1344_1_0_0_1_n_n : DotDims S32768x3 S3x1344 S32768x1344 where
  lhsContracting := [1]
  rhsContracting := [0]
  lhsNonContracting := [0]
  rhsNonContracting := [1]
  lhsBatch := []
  rhsBatch := []
  wf := dot_S32768x3_S3x1344_S32768x1344_1_0_0_1_n_n_wf
def dot_S32768x448_S448x448_S32768x448_1_0_0_1_n_n : DotDims S32768x448 S448x448 S32768x448 where
  lhsContracting := [1]
  rhsContracting := [0]
  lhsNonContracting := [0]
  rhsNonContracting := [1]
  lhsBatch := []
  rhsBatch := []
  wf := dot_S32768x448_S448x448_S32768x448_1_0_0_1_n_n_wf
def dot_S32768x448_S448x256_S32768x256_1_0_0_1_n_n : DotDims S32768x448 S448x256 S32768x256 where
  lhsContracting := [1]
  rhsContracting := [0]
  lhsNonContracting := [0]
  rhsNonContracting := [1]
  lhsBatch := []
  rhsBatch := []
  wf := dot_S32768x448_S448x256_S32768x256_1_0_0_1_n_n_wf

class Facts : Prop extends Facts₀ where

variable [Facts]
-- ==== Proof.CellSpec.lean ====
/-
  A dual-path gated recurrent cell, one batch row at a time, on the extended reals.

  A row carries three input features x = (y0, y1, c) and a hidden state h of 896 entries, split into a coarse half (columns
  0..447) and a fine half (columns 448..895). With R = h · R_W (2688 columns: three gate blocks of 896), the coarse input
  projection Ic = y0 · Wc(0, ·) + y1 · Wc(1, ·) and the fine one If = y0 · Wf(0, ·) + y1 · Wf(1, ·) + c · Wf(2, ·) (1344 columns
  each: three gate blocks of 448), a half at column offset o with input projection I computes, at its column q,
      u = σ(R(o + q) + I(q) + b_u(o + q)),   r = σ(R(896 + o + q) + I(448 + q) + b_r(o + q)),
      e = tanh(r · R(1792 + o + q) + I(896 + q) + b_e(o + q)),   h'(o + q) = u · h(o + q) + (1 − u) · e,
  the coarse half with (o, I) = (0, Ic) and the fine half with (448, If). Each half then feeds its own output head,
  relu(h'_half · O + b) · O' + b', of 256 entries. Every row is computed from that row alone.

  σ is the logistic function of the extended reals, 1 / (1 + e^(−x)) with value 0 at −∞ and 1 at +∞. Float literals are kept
  as the words the programs write (one in 1 − u, zero in relu) and are never evaluated here. No step needs an entry to be
  finite: sums are only regrouped, never distributed over.
-/
import Idealize.ShloMosaic.PureOps.Ideal
import Idealize.ShloMosaic.Lib.ValueIdx

noncomputable section

namespace GruCell

open Idealize.ShloMosaic Idealize.ShloMosaic.ValueIdx

/-- The cell's parameters: the recurrent matrix, the two input matrices, the four head layers and the three gate biases. -/
structure Params where
  RW : (⟨2, ![896, 2688]⟩ : Shape).Idx → EReal
  Wc : (⟨2, ![2, 1344]⟩ : Shape).Idx → EReal
  Wf : (⟨2, ![3, 1344]⟩ : Shape).Idx → EReal
  O1W : (⟨2, ![448, 448]⟩ : Shape).Idx → EReal
  O1b : (⟨1, ![448]⟩ : Shape).Idx → EReal
  O2W : (⟨2, ![448, 256]⟩ : Shape).Idx → EReal
  O2b : (⟨1, ![256]⟩ : Shape).Idx → EReal
  O3W : (⟨2, ![448, 448]⟩ : Shape).Idx → EReal
  O3b : (⟨1, ![448]⟩ : Shape).Idx → EReal
  O4W : (⟨2, ![448, 256]⟩ : Shape).Idx → EReal
  O4b : (⟨1, ![256]⟩ : Shape).Idx → EReal
  bu : (⟨1, ![896]⟩ : Shape).Idx → EReal
  br : (⟨1, ![896]⟩ : Shape).Idx → EReal
  be : (⟨1, ![896]⟩ : Shape).Idx → EReal

/-- The word of the float one, as the programs write it in 1 − u. -/
abbrev oneW : EReal := Ideal.ofBits .f32 0x3F800000#32

/-- The word of the float zero, as the programs write it in relu. -/
abbrev zeroW : EReal := Ideal.ofBits .f32 0x00000000#32

/-- Column o + q of an axis of n entries, for q in a block of 448. -/
abbrev col (o : Nat) (q : Fin 448) {n : Nat} (h : o + 448 ≤ n) : Fin n := ⟨o + q.val, by have := q.isLt; omega⟩

variable (P : Params)

/-- R = h · R_W at column j. -/
def recur (hr : Fin 896 → EReal) (j : Fin 2688) : EReal := ∑ k : Fin 896, hr k * P.RW (ix2 k j)

/-- The coarse input projection at column j. -/
def inCoarse (xr : Fin 3 → EReal) (j : Fin 1344) : EReal := xr 0 * P.Wc (ix2 0 j) + xr 1 * P.Wc (ix2 1 j)

/-- The fine input projection at column j. -/
def inFine (xr : Fin 3 → EReal) (j : Fin 1344) : EReal :=
  xr 0 * P.Wf (ix2 0 j) + xr 1 * P.Wf (ix2 1 j) + xr 2 * P.Wf (ix2 2 j)

/-- The update gate of the half at offset o, at its column q. -/
def gateU (I : Fin 1344 → EReal) (hr : Fin 896 → EReal) (o : Nat) (ho : o + 448 ≤ 896) (q : Fin 448) : EReal :=
  Ideal.logistic (recur P hr (col o q (by omega)) + I (col 0 q (by omega)) + P.bu (ix1 (col o q ho)))

/-- The reset gate. -/
def gateR (I : Fin 1344 → EReal) (hr : Fin 896 → EReal) (o : Nat) (ho : o + 448 ≤ 896) (q : Fin 448) : EReal :=
  Ideal.logistic (recur P hr (col (896 + o) q (by omega)) + I (col 448 q (by omega)) + P.br (ix1 (col o q ho)))

/-- The candidate state. -/
def cand (I : Fin 1344 → EReal) (hr : Fin 896 → EReal) (o : Nat) (ho : o + 448 ≤ 896) (q : Fin 448) : EReal :=
  Ideal.tanh (gateR P I hr o ho q * recur P hr (col (1792 + o) q (by omega)) + I (col 896 q (by omega))
    + P.be (ix1 (col o q ho)))

/-- The new hidden state of the half at offset o, at its column q. -/
def half (I : Fin 1344 → EReal) (hr : Fin 896 → EReal) (o : Nat) (ho : o + 448 ≤ 896) (q : Fin 448) : EReal :=
  gateU P I hr o ho q * hr (col o q ho) + (oneW - gateU P I hr o ho q) * cand P I hr o ho q

/-- The coarse half of the new hidden state. -/
def halfLo (xr : Fin 3 → EReal) (hr : Fin 896 → EReal) (q : Fin 448) : EReal :=
  half P (inCoarse P xr) hr 0 (by omega) q

/-- The fine half of the new hidden state. -/
def halfHi (xr : Fin 3 → EReal) (hr : Fin 896 → EReal) (q : Fin 448) : EReal :=
  half P (inFine P xr) hr 448 (by omega) q

/-- The new hidden row: the coarse half on columns below 448, the fine half from there on. -/
def hidden (xr : Fin 3 → EReal) (hr : Fin 896 → EReal) (j : Fin 896) : EReal :=
  if h : j.val < 448 then halfLo P xr hr ⟨j.val, h⟩ else halfHi P xr hr ⟨j.val - 448, by have := j.isLt; omega⟩

/-- An output head on a half A: relu(A · O + b) · O' + b' at column n. -/
def head (A : Fin 448 → EReal) (OW : (⟨2, ![448, 448]⟩ : Shape).Idx → EReal) (Ob : (⟨1, ![448]⟩ : Shape).Idx → EReal)
    (PW : (⟨2, ![448, 256]⟩ : Shape).Idx → EReal) (Pb : (⟨1, ![256]⟩ : Shape).Idx → EReal) (n : Fin 256) : EReal :=
  (∑ k : Fin 448, max ((∑ l : Fin 448, A l * OW (ix2 l k)) + Ob (ix1 k)) zeroW * PW (ix2 k n)) + Pb (ix1 n)

/-- The coarse output row. -/
def coarse (xr : Fin 3 → EReal) (hr : Fin 896 → EReal) (n : Fin 256) : EReal :=
  head (halfLo P xr hr) P.O1W P.O1b P.O2W P.O2b n

/-- The fine output row. -/
def fine (xr : Fin 3 → EReal) (hr : Fin 896 → EReal) (n : Fin 256) : EReal :=
  head (halfHi P xr hr) P.O3W P.O3b P.O4W P.O4b n

/-! ## Rows of arrays, and the three result arrays -/

variable {M : Nat}

/-- Row r of the input features: the two previous samples, then the current coarse sample. -/
def xrow (py : (⟨2, ![M, 2]⟩ : Shape).Idx → EReal) (cc : (⟨2, ![M, 1]⟩ : Shape).Idx → EReal) (r : Fin M) : Fin 3 → EReal :=
  fun k => if h : k.val < 2 then py (ix2 r ⟨k.val, h⟩) else cc (ix2 r 0)

/-- Row r of the hidden state. -/
def hrow (H : (⟨2, ![M, 896]⟩ : Shape).Idx → EReal) (r : Fin M) : Fin 896 → EReal := fun k => H (ix2 r k)

/-- The new hidden state of every row. -/
def hiddenArr (py : (⟨2, ![M, 2]⟩ : Shape).Idx → EReal) (cc : (⟨2, ![M, 1]⟩ : Shape).Idx → EReal)
    (H : (⟨2, ![M, 896]⟩ : Shape).Idx → EReal) : (⟨2, ![M, 896]⟩ : Shape).Idx → EReal :=
  fun i => hidden P (xrow py cc (i 0)) (hrow H (i 0)) (i 1)

/-- The coarse output of every row. -/
def coarseArr (py : (⟨2, ![M, 2]⟩ : Shape).Idx → EReal) (cc : (⟨2, ![M, 1]⟩ : Shape).Idx → EReal)
    (H : (⟨2, ![M, 896]⟩ : Shape).Idx → EReal) : (⟨2, ![M, 256]⟩ : Shape).Idx → EReal :=
  fun i => coarse P (xrow py cc (i 0)) (hrow H (i 0)) (i 1)

/-- The fine output of every row. -/
def fineArr (py : (⟨2, ![M, 2]⟩ : Shape).Idx → EReal) (cc : (⟨2, ![M, 1]⟩ : Shape).Idx → EReal)
    (H : (⟨2, ![M, 896]⟩ : Shape).Idx → EReal) : (⟨2, ![M, 256]⟩ : Shape).Idx → EReal :=
  fun i => fine P (xrow py cc (i 0)) (hrow H (i 0)) (i 1)

/-! ## The hidden row on each half -/

/-- The hidden row on a column of the coarse half. -/
theorem hidden_lo (xr : Fin 3 → EReal) (hr : Fin 896 → EReal) (j : Fin 896) (q : Fin 448) (hq : j.val = q.val) :
    hidden P xr hr j = halfLo P xr hr q := by
  have hj : j.val < 448 := by have := q.isLt; omega
  unfold hidden
  rw [dif_pos hj]
  exact congrArg _ (Fin.ext hq)

/-- The hidden row on a column of the fine half. -/
theorem hidden_hi (xr : Fin 3 → EReal) (hr : Fin 896 → EReal) (j : Fin 896) (q : Fin 448) (hq : j.val = 448 + q.val) :
    hidden P xr hr j = halfHi P xr hr q := by
  have hj : ¬ j.val < 448 := by omega
  unfold hidden
  rw [dif_neg hj]
  exact congrArg _ (Fin.ext (by show j.val - 448 = q.val; omega))

end GruCell

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibIndexReads.lean ====
/-
  Small reads at an index, and the logistic function written out as a quotient. Nothing here depends on a program.
    • An index of a matrix (of a vector) is determined by the values of its coordinates: the form in which a composed index
      map is identified with the index of given coordinates, each coordinate by reflexivity or by arithmetic.
    • A vector cut from entry o reads, at q, the source at o + q; cut, recast as one row and spread down the rows, it reads
      at (p, q) the source at o + q (needs LibKeepdims.lean beside it).
    • The logistic function and the hyperbolic tangent of a vector act entry by entry on the extended reals.
    • The quotient 1 / (1 + e^(−x)) with both ones written as the float32 word of one is the logistic function of the
      extended reals, at the infinities too: the word is the extended real one, and the logistic function is that quotient by
      definition. Stated on the extended reals' own operations and on the host's operations a reference program uses when
      it writes a sigmoid out as negate, exponential, add and divide.
-/
import proofs.«144807_j55327768708091_2_alg».proof.Proof.LibKeepdims
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost

noncomputable section

namespace IndexReads

open Idealize.ShloMosaic Idealize.ShloMosaic.ValueIdx

/-- A matrix index is determined by the values of its two coordinates. -/
theorem ix2_of_vals {n0 n1 : Nat} (i : (⟨2, ![n0, n1]⟩ : Shape).Idx) (a : Fin n0) (b : Fin n1)
    (h0 : (i 0).val = a.val) (h1 : (i 1).val = b.val) : i = ix2 a b :=
  (eq_ix2 i).trans (congrArg₂ ix2 (Fin.ext h0) (Fin.ext h1))

/-- A vector index is determined by the value of its coordinate. -/
theorem ix1_of_val {n : Nat} (i : (⟨1, ![n]⟩ : Shape).Idx) (a : Fin n) (h : (i 0).val = a.val) : i = ix1 a :=
  (eq_ix1 i).trans (congrArg ix1 (Fin.ext h))

/-- A vector cut from entry o reads, at q, the source at o + q. -/
theorem slice_vec_apply {α : Type} {n w : Nat} (o : Nat) (x : (⟨1, ![n]⟩ : Shape).Idx → α)
    (h : (⟨1, ![n]⟩ : Shape).Slices ![o] ⟨1, ![w]⟩) (q : Fin w) (k : Fin n) (hk : k.val = o + q.val) :
    extractStridedSlice ⟨1, ![w]⟩ ![o] x h (ix1 q) = x (ix1 k) :=
  extractStridedSlice_apply _ _ _ _ _ (fun ax => by
    match ax with
    | ⟨0, _⟩ => exact hk)

/-- A bias vector cut from entry o, recast as one row and spread down the rows, reads at (p, q) the vector at o + q. -/
theorem bias_half_apply {α : Type} {n w a : Nat} (o : Nat) (x : (⟨1, ![n]⟩ : Shape).Idx → α)
    (hs : (⟨1, ![n]⟩ : Shape).Slices ![o] ⟨1, ![w]⟩) (hc : (⟨1, ![w]⟩ : Shape).ShapeCasts ⟨2, ![1, w]⟩)
    (hb : (⟨2, ![1, w]⟩ : Shape).Broadcasts ⟨2, ![a, w]⟩) (p : Fin a) (q : Fin w) (k : Fin n) (hk : k.val = o + q.val) :
    broadcastTo ⟨2, ![a, w]⟩ (shapeCast ⟨2, ![1, w]⟩ (extractStridedSlice ⟨1, ![w]⟩ ![o] x hs) hc) hb (ix2 p q) = x (ix1 k) :=
  (Keepdims.broadcastTo_row_of_vec_apply _ hc hb p q).trans (slice_vec_apply o x hs q k hk)

/-- The logistic function of a vector acts entry by entry. -/
theorem logistic_apply {s : Shape} {φ : FTy} (a : FVec Ideal s φ) (i : s.Idx) : logistic a i = Ideal.logistic (a i) := rfl

/-- The hyperbolic tangent of a vector acts entry by entry. -/
theorem tanh_apply {s : Shape} {φ : FTy} (a : FVec Ideal s φ) (i : s.Idx) : tanh a i = Ideal.tanh (a i) := rfl

/-- The quotient 1 / (1 + e^(−x)), both ones written as the float32 word of one, is the logistic function. -/
theorem logistic_spelled_out (x : EReal) :
    Ideal.div (Ideal.ofBits .f32 0x3F800000#32) (Ideal.ofBits .f32 0x3F800000#32 + Ideal.exp (-x)) = Ideal.logistic x := by
  rw [Ideal.ofBits_one_f32]
  rfl

/-- The same in the host's operations: divide, add, exponential and negate, as a reference that writes a sigmoid out uses them. -/
theorem logistic_written_out (a : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf a)))
      = Ideal.logistic a :=
  logistic_spelled_out a

end IndexReads

end
-- ==== Proof.KernelPayloads.lean ====
/-
  The kernel body's arithmetic read at one entry of a 512-row block, on the extended reals.

  Narrowing a float to a shorter format is the identity here, and a matrix product into a zero accumulator is the sum over
  the contracted position of the products of the entries. So, at row p of the block:
    • the recurrent product at column j is the sum over k of h(p, k) · R_W(k, j);
    • the two input projections are the sums of a feature column times a weight row, two terms for the coarse one and three
      for the fine one, in the order the body adds them;
    • each half of the new hidden state is u · h + (1 − u) · e with the gates read at that row: slices along the columns move
      a column by their offset, and a bias vector spread down the rows is read at the column alone;
    • an output head is relu(A · O + b) · O' + b' with A the half at that row.
  Every statement is over variables of the literal vector shapes; where a block or a load is meant it is substituted later.
-/
import proofs.«144807_j55327768708091_2_alg».proof.Proof.Gen.KernelIdeal.Skeleton
import proofs.«144807_j55327768708091_2_alg».proof.Proof.CellSpec
import proofs.«144807_j55327768708091_2_alg».proof.Proof.LibPlainDot
import proofs.«144807_j55327768708091_2_alg».proof.Proof.LibKeepdims
import proofs.«144807_j55327768708091_2_alg».proof.Proof.LibIndexReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx GruCell IndexReads

/-! ## The three matrix products are plain [M, K] × [K, N] products -/

/-- The recurrent product contracts the hidden axis: left operand read at (row, k), right at (k, column). -/
theorem plain_recur : PlainDot.IsPlain dot_S512x896_S896x2688_S512x2688_1_0_0_1_n_n where
  rank := rfl
  size := rfl
  lhs0 := fun i q => by
    unfold DotDims.lhsIdx
    rw [dif_neg (show ¬(0 : Fin S512x896.rank) ∈ dot_S512x896_S896x2688_S512x2688_1_0_0_1_n_n.lhsBatch by decide),
      dif_pos (show (0 : Fin S512x896.rank) ∈ dot_S512x896_S896x2688_S512x2688_1_0_0_1_n_n.lhsNonContracting by decide)]
    rfl
  lhs1 := fun i q => dot_S512x896_S896x2688_S512x2688_1_0_0_1_n_n.lhsIdx_val_of_single rfl i q
  rhs0 := fun i q => dot_S512x896_S896x2688_S512x2688_1_0_0_1_n_n.rhsIdx_val_of_single rfl i q
  rhs1 := fun i q => by
    unfold DotDims.rhsIdx
    rw [dif_neg (show ¬(1 : Fin S896x2688.rank) ∈ dot_S512x896_S896x2688_S512x2688_1_0_0_1_n_n.rhsBatch by decide),
      dif_pos (show (1 : Fin S896x2688.rank) ∈ dot_S512x896_S896x2688_S512x2688_1_0_0_1_n_n.rhsNonContracting by decide)]
    rfl

/-- The first layer of a head contracts the half's 448 columns. -/
theorem plain_head1 : PlainDot.IsPlain dot_S512x448_S448x448_S512x448_1_0_0_1_n_n where
  rank := rfl
  size := rfl
  lhs0 := fun i q => by
    unfold DotDims.lhsIdx
    rw [dif_neg (show ¬(0 : Fin S512x448.rank) ∈ dot_S512x448_S448x448_S512x448_1_0_0_1_n_n.lhsBatch by decide),
      dif_pos (show (0 : Fin S512x448.rank) ∈ dot_S512x448_S448x448_S512x448_1_0_0_1_n_n.lhsNonContracting by decide)]
    rfl
  lhs1 := fun i q => dot_S512x448_S448x448_S512x448_1_0_0_1_n_n.lhsIdx_val_of_single rfl i q
  rhs0 := fun i q => dot_S512x448_S448x448_S512x448_1_0_0_1_n_n.rhsIdx_val_of_single rfl i q
  rhs1 := fun i q => by
    unfold DotDims.rhsIdx
    rw [dif_neg (show ¬(1 : Fin S448x448.rank) ∈ dot_S512x448_S448x448_S512x448_1_0_0_1_n_n.rhsBatch by decide),
      dif_pos (show (1 : Fin S448x448.rank) ∈ dot_S512x448_S448x448_S512x448_1_0_0_1_n_n.rhsNonContracting by decide)]
    rfl

/-- The second layer of a head contracts the 448 hidden units of the head. -/
theorem plain_head2 : PlainDot.IsPlain dot_S512x448_S448x256_S512x256_1_0_0_1_n_n where
  rank := rfl
  size := rfl
  lhs0 := fun i q => by
    unfold DotDims.lhsIdx
    rw [dif_neg (show ¬(0 : Fin S512x448.rank) ∈ dot_S512x448_S448x256_S512x256_1_0_0_1_n_n.lhsBatch by decide),
      dif_pos (show (0 : Fin S512x448.rank) ∈ dot_S512x448_S448x256_S512x256_1_0_0_1_n_n.lhsNonContracting by decide)]
    rfl
  lhs1 := fun i q => dot_S512x448_S448x256_S512x256_1_0_0_1_n_n.lhsIdx_val_of_single rfl i q
  rhs0 := fun i q => dot_S512x448_S448x256_S512x256_1_0_0_1_n_n.rhsIdx_val_of_single rfl i q
  rhs1 := fun i q => by
    unfold DotDims.rhsIdx
    rw [dif_neg (show ¬(1 : Fin S448x256.rank) ∈ dot_S512x448_S448x256_S512x256_1_0_0_1_n_n.rhsBatch by decide),
      dif_pos (show (1 : Fin S448x256.rank) ∈ dot_S512x448_S448x256_S512x256_1_0_0_1_n_n.rhsNonContracting by decide)]
    rfl

/-! ## The recurrent product and the input projections -/

/-- The recurrent product at (p, j). -/
theorem recur_apply (v0 : Vec Ideal S512x896 .f32) (v4 : Vec Ideal S896x2688 .bf16) (p : Fin 512) (j : Fin 2688) :
    k0_pay3 (F := Ideal) v0 v4 (ix2 p j) = ∑ k : Fin 896, v0 (ix2 p k) * v4 (ix2 k j) := by
  unfold k0_pay3
  rw [shapeCast_self]
  exact PlainDot.matmul_zero_apply _ plain_recur none (truncf .bf16 v0 bitsLt_bf16_f32) v4 p j

/-- A feature column, cut from the three features at column o and spread across the lanes, reads the feature at (p, o). -/
theorem feature_apply (v1 : Vec Ideal S512x3 .f32) (o : Nat) (hs : S512x3.Slices ![0, o] S512x1) (p : Fin 512) (j : Fin 1344)
    (k : Fin 3) (hk : k.val = o) :
    broadcastTo S512x1344 (extractStridedSlice S512x1 ![0, o] (k0_pay2 (F := Ideal) v1) hs) broadcasts_S512x1_S512x1344 (ix2 p j)
      = v1 (ix2 p k) := by
  unfold k0_pay2
  dsimp only
  rw [shapeCast_self]
  exact (Keepdims.broadcastTo_a1_ab_apply _ broadcasts_S512x1_S512x1344 p j).trans
    (slice2_axis1_apply o v1 hs p (0 : Fin 1) k (by rw [hk]; rfl))

/-- The coarse input projection at (p, j): y0 · w0(j) + y1 · w1(j). -/
theorem inCoarse_apply (v1 : Vec Ideal S512x3 .f32) (v10 v11 : Vec Ideal S1x1344 .f32) (p : Fin 512) (j : Fin 1344) :
    k0_pay6 (F := Ideal) v1 v10 v11 (ix2 p j)
      = v1 (ix2 p 0) * v10 (ix2 (0 : Fin 1) j) + v1 (ix2 p 1) * v11 (ix2 (0 : Fin 1) j) := by
  unfold k0_pay6 k0_pay4 k0_pay5
  dsimp only
  rw [addf_apply, mulf_apply, mulf_apply, feature_apply v1 0 _ p j 0 rfl, feature_apply v1 1 _ p j 1 rfl,
    broadcastTo_1b_ab_apply v10 _ p j, broadcastTo_1b_ab_apply v11 _ p j]

/-- The fine input projection at (p, j): y0 · w0(j) + y1 · w1(j) + c · w2(j). -/
theorem inFine_apply (v1 : Vec Ideal S512x3 .f32) (v19 v20 v21 : Vec Ideal S1x1344 .f32) (p : Fin 512) (j : Fin 1344) :
    k0_pay7 (F := Ideal) v1 v19 v20 v21 (ix2 p j)
      = v1 (ix2 p 0) * v19 (ix2 (0 : Fin 1) j) + v1 (ix2 p 1) * v20 (ix2 (0 : Fin 1) j)
        + v1 (ix2 p 2) * v21 (ix2 (0 : Fin 1) j) := by
  unfold k0_pay7 k0_pay4 k0_pay5
  dsimp only
  rw [addf_apply, addf_apply, mulf_apply, mulf_apply, mulf_apply, feature_apply v1 0 _ p j 0 rfl,
    feature_apply v1 1 _ p j 1 rfl, feature_apply v1 2 _ p j 2 rfl,
    broadcastTo_1b_ab_apply v19 _ p j, broadcastTo_1b_ab_apply v20 _ p j, broadcastTo_1b_ab_apply v21 _ p j]

end Cert.KernelIdeal.Block

end
-- ==== Proof.KernelCell.lean ====
/-
  The kernel body's two halves of the new hidden state and its two output heads, at one row of a 512-row block, are the
  cell of the specification at that row.

  The body forms the three gate blocks of the recurrent product by slicing its 2688 columns at 0, 896 and 1792 (coarse half)
  or 448, 1344 and 2240 (fine half), the gate blocks of an input projection by slicing its 1344 columns at 0, 448 and 896,
  and the halves of the bias vectors by slicing at 0 or 448; read at a column q these are the columns o + q the specification
  names. The gates then agree term by term: the logistic function and the hyperbolic tangent act entry by entry, and the
  float one in 1 − u is the same word on both sides. A head is two plain matrix products into zero accumulators with a
  bias row added after each and a maximum with the float zero between them.
-/
import proofs.«144807_j55327768708091_2_alg».proof.Proof.KernelPayloads

noncomputable section

namespace Cert.KernelIdeal.Block

open Cert.KernelIdeal Cert.KernelIdeal.Gen Idealize.ShloMosaic Idealize.ShloMosaic.ValueIdx GruCell IndexReads

/-- The coarse half at (p, q): the body's value, over the loads it reads, is the specification's coarse half of the row
    whose features are row p of the feature block and whose hidden state is row p of the hidden block. -/
theorem halfLo_apply (P : Params) (v0 : Vec Ideal S512x896 .f32) (v4 : Vec Ideal S896x2688 .bf16) (v1 : Vec Ideal S512x3 .f32)
    (v10 v11 : Vec Ideal S1x1344 .f32) (v33 v34 v35 : Vec Ideal S896 .f32)
    (hRW : ∀ i, v4 i = P.RW i) (hW0 : ∀ j, v10 (ix2 (0 : Fin 1) j) = P.Wc (ix2 0 j))
    (hW1 : ∀ j, v11 (ix2 (0 : Fin 1) j) = P.Wc (ix2 1 j))
    (hbu : ∀ i, v33 i = P.bu i) (hbr : ∀ i, v34 i = P.br i) (hbe : ∀ i, v35 i = P.be i) (p : Fin 512) (q : Fin 448) :
    k0_pay12 (F := Ideal) v0 (k0_pay3 v0 v4) (k0_pay6 v1 v10 v11) v33 v34 v35 (k0_pay8 v0 v4) (k0_pay10 v0 v4) (ix2 p q)
      = halfLo P (fun k => v1 (ix2 p k)) (fun k => v0 (ix2 p k)) q := by
  unfold k0_pay12 k0_pay8 k0_pay10
  simp only [addf_apply, mulf_apply, subf_apply, broadcast_apply, logistic_apply, tanh_apply]
  rw [slice2_axis1_apply 0 (k0_pay3 v0 v4) slices_S512x2688_o0_0_S512x448 p q (col 0 q (by omega)) rfl,
    slice2_axis1_apply 896 (k0_pay3 v0 v4) slices_S512x2688_o0_896_S512x448 p q (col 896 q (by omega)) rfl,
    slice2_axis1_apply 1792 (k0_pay3 v0 v4) slices_S512x2688_o0_1792_S512x448 p q (col 1792 q (by omega)) rfl,
    slice2_axis1_apply 0 (k0_pay6 v1 v10 v11) slices_S512x1344_o0_0_S512x448 p q (col 0 q (by omega)) rfl,
    slice2_axis1_apply 448 (k0_pay6 v1 v10 v11) slices_S512x1344_o0_448_S512x448 p q (col 448 q (by omega)) rfl,
    slice2_axis1_apply 896 (k0_pay6 v1 v10 v11) slices_S512x1344_o0_896_S512x448 p q (col 896 q (by omega)) rfl,
    slice2_axis1_apply 0 v0 slices_S512x896_o0_0_S512x448 p q (col 0 q (by omega)) rfl,
    bias_half_apply 0 v33 slices_S896_o0_S448 shapeCasts_S448_S1x448 broadcasts_S1x448_S512x448 p q (col 0 q (by omega)) rfl,
    bias_half_apply 0 v34 slices_S896_o0_S448 shapeCasts_S448_S1x448 broadcasts_S1x448_S512x448 p q (col 0 q (by omega)) rfl,
    bias_half_apply 0 v35 slices_S896_o0_S448 shapeCasts_S448_S1x448 broadcasts_S1x448_S512x448 p q (col 0 q (by omega)) rfl]
  simp only [recur_apply, inCoarse_apply, hRW, hW0, hW1, hbu, hbr, hbe]
  rfl

/-- The fine half at (p, q), likewise: the gate blocks sit 448 columns further along and the input projection is the
    three-term one. -/
theorem halfHi_apply (P : Params) (v0 : Vec Ideal S512x896 .f32) (v4 : Vec Ideal S896x2688 .bf16) (v1 : Vec Ideal S512x3 .f32)
    (v19 v20 v21 : Vec Ideal S1x1344 .f32) (v33 v34 v35 : Vec Ideal S896 .f32)
    (hRW : ∀ i, v4 i = P.RW i) (hW0 : ∀ j, v19 (ix2 (0 : Fin 1) j) = P.Wf (ix2 0 j))
    (hW1 : ∀ j, v20 (ix2 (0 : Fin 1) j) = P.Wf (ix2 1 j)) (hW2 : ∀ j, v21 (ix2 (0 : Fin 1) j) = P.Wf (ix2 2 j))
    (hbu : ∀ i, v33 i = P.bu i) (hbr : ∀ i, v34 i = P.br i) (hbe : ∀ i, v35 i = P.be i) (p : Fin 512) (q : Fin 448) :
    k0_pay15 (F := Ideal) (k0_pay13 v0 (k0_pay7 v1 v19 v20 v21) v33 (k0_pay9 v0 v4))
        (k0_pay14 (k0_pay3 v0 v4) (k0_pay7 v1 v19 v20 v21) v33 v34 v35 (k0_pay9 v0 v4)) (ix2 p q)
      = halfHi P (fun k => v1 (ix2 p k)) (fun k => v0 (ix2 p k)) q := by
  unfold k0_pay15 k0_pay13 k0_pay14 k0_pay11 k0_pay9
  simp only [addf_apply, mulf_apply, subf_apply, broadcast_apply, logistic_apply, tanh_apply]
  rw [slice2_axis1_apply 448 (k0_pay3 v0 v4) slices_S512x2688_o0_448_S512x448 p q (col 448 q (by omega)) rfl,
    slice2_axis1_apply 1344 (k0_pay3 v0 v4) slices_S512x2688_o0_1344_S512x448 p q (col 1344 q (by omega)) rfl,
    slice2_axis1_apply 2240 (k0_pay3 v0 v4) slices_S512x2688_o0_2240_S512x448 p q (col 2240 q (by omega)) rfl,
    slice2_axis1_apply 0 (k0_pay7 v1 v19 v20 v21) slices_S512x1344_o0_0_S512x448 p q (col 0 q (by omega)) rfl,
    slice2_axis1_apply 448 (k0_pay7 v1 v19 v20 v21) slices_S512x1344_o0_448_S512x448 p q (col 448 q (by omega)) rfl,
    slice2_axis1_apply 896 (k0_pay7 v1 v19 v20 v21) slices_S512x1344_o0_896_S512x448 p q (col 896 q (by omega)) rfl,
    slice2_axis1_apply 448 v0 slices_S512x896_o0_448_S512x448 p q (col 448 q (by omega)) rfl,
    bias_half_apply 448 v33 slices_S896_o448_S448 shapeCasts_S448_S1x448 broadcasts_S1x448_S512x448 p q (col 448 q (by omega)) rfl,
    bias_half_apply 448 v34 slices_S896_o448_S448 shapeCasts_S448_S1x448 broadcasts_S1x448_S512x448 p q (col 448 q (by omega)) rfl,
    bias_half_apply 448 v35 slices_S896_o448_S448 shapeCasts_S448_S1x448 broadcasts_S1x448_S512x448 p q (col 448 q (by omega)) rfl]
  simp only [recur_apply, inFine_apply, hRW, hW0, hW1, hW2, hbu, hbr, hbe]
  rfl

/-- The coarse head at (p, n), over any half A held as a 512 × 448 block: the specification's head of row p of A. -/
theorem headCoarse_apply (A : FVec Ideal S512x448 .f32) (v101 : Vec Ideal S448x448 .bf16) (v104 : Vec Ideal S448 .f32)
    (v111 : Vec Ideal S448x256 .bf16) (v114 : Vec Ideal S256 .f32) (p : Fin 512) (n : Fin 256) :
    k0_pay16 (F := Ideal) A v101 v104 v111 v114 (ix2 p n) = head (fun l => A (ix2 p l)) v101 v104 v111 v114 n := by
  unfold k0_pay16 head
  simp only [shapeCast_self]
  rw [addf_apply]
  refine congrArg₂ (· + ·) ((PlainDot.matmul_zero_apply (φ₁ := .bf16) (φ₂ := .bf16) _ plain_head2 none _ v111 p n).trans ?_)
    (Keepdims.broadcastTo_row_of_vec_apply v114 shapeCasts_S256_S1x256 broadcasts_S1x256_S512x256 p n)
  refine Finset.sum_congr rfl fun k _ => ?_
  refine congrArg (· * v111 (ix2 k n)) ?_
  simp only [truncf_apply, maximumf_apply, addf_apply, broadcast_apply]
  refine congrArg (max · zeroW) ?_
  exact congrArg₂ (· + ·) (PlainDot.matmul_zero_apply (φ₁ := .bf16) (φ₂ := .bf16) _ plain_head1 none _ v101 p k)
    (Keepdims.broadcastTo_row_of_vec_apply v104 shapeCasts_S448_S1x448 broadcasts_S1x448_S512x448 p k)

/-- The fine head at (p, n): the same layers, fed the sum of the two products that make the fine half, with the last bias
    added by the body's final statement. -/
theorem headFine_apply (v93 v96 : FVec Ideal S512x448 .f32) (v119 : Vec Ideal S448x448 .bf16) (v122 : Vec Ideal S448 .f32)
    (v129 : Vec Ideal S448x256 .bf16) (v132 : Vec Ideal S256 .f32) (p : Fin 512) (n : Fin 256) :
    k0_pay1 (F := Ideal) (k0_pay17 v93 v96 v119 v122 v129) v132 (ix2 p n)
      = head (fun l => k0_pay15 v93 v96 (ix2 p l)) v119 v122 v129 v132 n := by
  unfold k0_pay1 k0_pay17 head
  simp only [shapeCast_self]
  rw [addf_apply]
  refine congrArg₂ (· + ·) ((PlainDot.matmul_zero_apply (φ₁ := .bf16) (φ₂ := .bf16) _ plain_head2 none _ v129 p n).trans ?_)
    (Keepdims.broadcastTo_row_of_vec_apply v132 shapeCasts_S256_S1x256 broadcasts_S1x256_S512x256 p n)
  refine Finset.sum_congr rfl fun k _ => ?_
  refine congrArg (· * v129 (ix2 k n)) ?_
  simp only [truncf_apply, maximumf_apply, addf_apply, broadcast_apply]
  refine congrArg (max · zeroW) ?_
  exact congrArg₂ (· + ·) (PlainDot.matmul_zero_apply (φ₁ := .bf16) (φ₂ := .bf16) _ plain_head1 none _ v119 p k)
    (Keepdims.broadcastTo_row_of_vec_apply v122 shapeCasts_S448_S1x448 broadcasts_S1x448_S512x448 p k)

end Cert.KernelIdeal.Block

end
-- ==== Proof.LibRectLoad.lean ====
/-
  A load through a rectangle of consecutive rows and columns of a matrix, read at an index: the m0 × m1 rectangle at
  offsets (o0, o1) of an n0 × n1 matrix holds, at (p, q), the matrix's entry (o0 + p, o1 + q). General over the extents, the
  offsets and the element values; nothing here depends on a program.
-/
import Idealize.ShloMosaic.Lib.Pipeline.Value
import Idealize.ShloMosaic.Lib.ValueIdx

namespace RectLoad

open Idealize.ShloMosaic Idealize.ShloMosaic.ValueIdx

/-- A load of the m0 × m1 unit-stride rectangle at offsets (o0, o1) of a matrix reads, at (p, q), the matrix at
    (o0 + p, o1 + q). -/
theorem ld_rect_apply {Val : EltTy → Type} {n0 n1 m0 m1 : Nat} {e : EltTy} (X : (⟨2, ![n0, n1]⟩ : Shape).Idx → Val e) (o0 o1 : Nat)
    (inb : ∀ a, (![o0, o1] : Fin 2 → Nat) a + (![m0, m1] : Fin 2 → Nat) a ≤ (⟨2, ![n0, n1]⟩ : Shape).size a)
    (p : Fin m0) (q : Fin m1) (p' : Fin n0) (q' : Fin n1) (hp : p'.val = o0 + p.val) (hq : q'.val = o1 + q.val) :
    (View.ld X (Rect.unit (s := ⟨2, ![n0, n1]⟩) ![o0, o1] ![m0, m1] inb) : (⟨2, ![m0, m1]⟩ : Shape).Idx → Val e) (ix2 p q) = X (ix2 p' q') := by
  show X ((Rect.unit (s := ⟨2, ![n0, n1]⟩) ![o0, o1] ![m0, m1] inb).idx (ix2 p q)) = X (ix2 p' q')
  refine congrArg X (funext fun a => Fin.ext ?_)
  match a with
  | ⟨0, _⟩ => show o0 + 1 * p.val = p'.val; omega
  | ⟨1, _⟩ => show o1 + 1 * q.val = q'.val; omega

end RectLoad
-- ==== Proof.KernelPoint.lean ====
/-
  What the kernel body leaves in each of its three output blocks, at one entry, over the sixteen input blocks it reads.

  The two 512 × 256 output blocks are each written by one store of the whole block, so they hold that store's value: the
  coarse and the fine head of the row. The 512 × 896 hidden block is written by two stores side by side, the coarse half into
  columns 0..447 and the fine half into columns 448..895; together they cover the block, and each agrees with the
  specification's hidden row on its own columns, so the block holds the hidden row. A load of a whole block reads the block;
  a load of one row of a small weight matrix reads that row.
-/
import proofs.«144807_j55327768708091_2_alg».proof.Proof.Gen.KernelIdeal.Frame
import proofs.«144807_j55327768708091_2_alg».proof.Proof.KernelCell
import proofs.«144807_j55327768708091_2_alg».proof.Proof.LibRectLoad

noncomputable section

namespace Cert.KernelIdeal.Block

open Cert.KernelIdeal Cert.KernelIdeal.Gen Idealize.ShloMosaic Idealize.ShloMosaic.ValueIdx GruCell IndexReads

/-- The zero offsets of a whole-block rectangle, in rank 2 and rank 1. -/
theorem hz2 : (![0, 0] : Fin 2 → Nat) = fun _ => 0 := funext fun a => by fin_cases a <;> rfl

theorem hz1 : (![0] : Fin 1 → Nat) = fun _ => 0 := funext fun a => by fin_cases a; rfl

/-- The coarse half as the body computes it from the blocks, at every column of row p. -/
theorem halfLo_blocks (P : Params) (x0 : Vec Ideal S512x3 .f32) (x1 : Vec Ideal S512x896 .f32) (x2 : Vec Ideal S896x2688 .bf16)
    (x3 : Vec Ideal S2x1344 .f32) (x4 : Vec Ideal S3x1344 .f32) (x5 : Vec Ideal S448x448 .bf16) (x6 : Vec Ideal S448 .f32)
    (x7 : Vec Ideal S448x256 .bf16) (x8 : Vec Ideal S256 .f32) (x9 : Vec Ideal S448x448 .bf16) (x10 : Vec Ideal S448 .f32)
    (x11 : Vec Ideal S448x256 .bf16) (x12 : Vec Ideal S256 .f32) (x13 x14 x15 : Vec Ideal S896 .f32)
    (hRW : ∀ i, x2 i = P.RW i) (hWc : ∀ i, x3 i = P.Wc i)
    (hbu : ∀ i, x13 i = P.bu i) (hbr : ∀ i, x14 i = P.br i) (hbe : ∀ i, x15 i = P.be i) (p : Fin 512) :
    (fun l => k0_pay12 (F := Ideal) x1 (k0_pay3 x1 x2) (k0_pay6 x0 (View.ld x3 r0_3) (View.ld x3 r0_4)) x13 x14 x15
        (k0_pay8 x1 x2) (k0_pay10 x1 x2) (ix2 p l)) = halfLo P (fun k => x0 (ix2 p k)) (fun k => x1 (ix2 p k)) :=
  funext fun l => halfLo_apply P x1 x2 x0 (View.ld x3 r0_3) (View.ld x3 r0_4) x13 x14 x15 hRW
      (fun j => (RectLoad.ld_rect_apply x3 0 0 inb_S2x1344_S1x1344_0_0 (0 : Fin 1) j (0 : Fin 2) j rfl (by show j.val = 0 + j.val; omega)).trans (hWc _))
      (fun j => (RectLoad.ld_rect_apply x3 1 0 inb_S2x1344_S1x1344_1_0 (0 : Fin 1) j (1 : Fin 2) j rfl (by show j.val = 0 + j.val; omega)).trans (hWc _))
      hbu hbr hbe p l

/-- The fine half as the body computes it from the blocks, at every column of row p. -/
theorem halfHi_blocks (P : Params) (x0 : Vec Ideal S512x3 .f32) (x1 : Vec Ideal S512x896 .f32) (x2 : Vec Ideal S896x2688 .bf16)
    (x3 : Vec Ideal S2x1344 .f32) (x4 : Vec Ideal S3x1344 .f32) (x5 : Vec Ideal S448x448 .bf16) (x6 : Vec Ideal S448 .f32)
    (x7 : Vec Ideal S448x256 .bf16) (x8 : Vec Ideal S256 .f32) (x9 : Vec Ideal S448x448 .bf16) (x10 : Vec Ideal S448 .f32)
    (x11 : Vec Ideal S448x256 .bf16) (x12 : Vec Ideal S256 .f32) (x13 x14 x15 : Vec Ideal S896 .f32)
    (hRW : ∀ i, x2 i = P.RW i) (hWf : ∀ i, x4 i = P.Wf i)
    (hbu : ∀ i, x13 i = P.bu i) (hbr : ∀ i, x14 i = P.br i) (hbe : ∀ i, x15 i = P.be i) (p : Fin 512) :
    (fun l => k0_pay15 (F := Ideal) (k0_pay13 x1 (k0_pay7 x0 (View.ld x4 r0_5) (View.ld x4 r0_6) (View.ld x4 r0_7)) x13 (k0_pay9 x1 x2))
        (k0_pay14 (k0_pay3 x1 x2) (k0_pay7 x0 (View.ld x4 r0_5) (View.ld x4 r0_6) (View.ld x4 r0_7)) x13 x14 x15 (k0_pay9 x1 x2))
        (ix2 p l)) = halfHi P (fun k => x0 (ix2 p k)) (fun k => x1 (ix2 p k)) :=
  funext fun l => halfHi_apply P x1 x2 x0 (View.ld x4 r0_5) (View.ld x4 r0_6) (View.ld x4 r0_7) x13 x14 x15 hRW
      (fun j => (RectLoad.ld_rect_apply x4 0 0 inb_S3x1344_S1x1344_0_0 (0 : Fin 1) j (0 : Fin 3) j rfl (by show j.val = 0 + j.val; omega)).trans (hWf _))
      (fun j => (RectLoad.ld_rect_apply x4 1 0 inb_S3x1344_S1x1344_1_0 (0 : Fin 1) j (1 : Fin 3) j rfl (by show j.val = 0 + j.val; omega)).trans (hWf _))
      (fun j => (RectLoad.ld_rect_apply x4 2 0 inb_S3x1344_S1x1344_2_0 (0 : Fin 1) j (2 : Fin 3) j rfl (by show j.val = 0 + j.val; omega)).trans (hWf _))
      hbu hbr hbe p l

/-- The coarse output block at (p, n). -/
theorem coarse_point (P : Params) (x0 : Vec Ideal S512x3 .f32) (x1 : Vec Ideal S512x896 .f32) (x2 : Vec Ideal S896x2688 .bf16)
    (x3 : Vec Ideal S2x1344 .f32) (x4 : Vec Ideal S3x1344 .f32) (x5 : Vec Ideal S448x448 .bf16) (x6 : Vec Ideal S448 .f32)
    (x7 : Vec Ideal S448x256 .bf16) (x8 : Vec Ideal S256 .f32) (x9 : Vec Ideal S448x448 .bf16) (x10 : Vec Ideal S448 .f32)
    (x11 : Vec Ideal S448x256 .bf16) (x12 : Vec Ideal S256 .f32) (x13 x14 x15 : Vec Ideal S896 .f32)
    (hRW : ∀ i, x2 i = P.RW i) (hWc : ∀ i, x3 i = P.Wc i)
    (hO1W : ∀ i, x5 i = P.O1W i) (hO1b : ∀ i, x6 i = P.O1b i) (hO2W : ∀ i, x7 i = P.O2W i) (hO2b : ∀ i, x8 i = P.O2b i)
    (hbu : ∀ i, x13 i = P.bu i) (hbr : ∀ i, x14 i = P.br i) (hbe : ∀ i, x15 i = P.be i) (p : Fin 512) (n : Fin 256) :
    out0_16 (F := Ideal) x0 x1 x2 x3 x4 x5 x6 x7 x8 x9 x10 x11 x12 x13 x14 x15 (ix2 p n) = coarse P (fun k => x0 (ix2 p k)) (fun k => x1 (ix2 p k)) n := by
  unfold out0_16
  rw [View.canon_unit_zero hz2]
  simp only [View.ld_unit_zero (S := S512x896) hz2, View.ld_unit_zero (S := S512x3) hz2, View.ld_unit_zero (S := S896x2688) hz2, View.ld_unit_zero (S := S448x448) hz2, View.ld_unit_zero (S := S448x256) hz2, View.ld_unit_zero (S := S896) hz1, View.ld_unit_zero (S := S448) hz1, View.ld_unit_zero (S := S256) hz1]
  refine (headCoarse_apply _ x5 x6 x7 x8 p n).trans ?_
  rw [halfLo_blocks P x0 x1 x2 x3 x4 x5 x6 x7 x8 x9 x10 x11 x12 x13 x14 x15 hRW hWc hbu hbr hbe p]
  unfold coarse head
  simp only [hO1W, hO1b, hO2W, hO2b]

/-- The fine output block at (p, n). -/
theorem fine_point (P : Params) (x0 : Vec Ideal S512x3 .f32) (x1 : Vec Ideal S512x896 .f32) (x2 : Vec Ideal S896x2688 .bf16)
    (x3 : Vec Ideal S2x1344 .f32) (x4 : Vec Ideal S3x1344 .f32) (x5 : Vec Ideal S448x448 .bf16) (x6 : Vec Ideal S448 .f32)
    (x7 : Vec Ideal S448x256 .bf16) (x8 : Vec Ideal S256 .f32) (x9 : Vec Ideal S448x448 .bf16) (x10 : Vec Ideal S448 .f32)
    (x11 : Vec Ideal S448x256 .bf16) (x12 : Vec Ideal S256 .f32) (x13 x14 x15 : Vec Ideal S896 .f32)
    (hRW : ∀ i, x2 i = P.RW i) (hWf : ∀ i, x4 i = P.Wf i)
    (hO3W : ∀ i, x9 i = P.O3W i) (hO3b : ∀ i, x10 i = P.O3b i) (hO4W : ∀ i, x11 i = P.O4W i) (hO4b : ∀ i, x12 i = P.O4b i)
    (hbu : ∀ i, x13 i = P.bu i) (hbr : ∀ i, x14 i = P.br i) (hbe : ∀ i, x15 i = P.be i) (p : Fin 512) (n : Fin 256) :
    out0_17 (F := Ideal) x0 x1 x2 x3 x4 x5 x6 x7 x8 x9 x10 x11 x12 x13 x14 x15 (ix2 p n) = fine P (fun k => x0 (ix2 p k)) (fun k => x1 (ix2 p k)) n := by
  unfold out0_17
  rw [View.canon_unit_zero hz2]
  simp only [View.ld_unit_zero (S := S512x896) hz2, View.ld_unit_zero (S := S512x3) hz2, View.ld_unit_zero (S := S896x2688) hz2, View.ld_unit_zero (S := S448x448) hz2, View.ld_unit_zero (S := S448x256) hz2, View.ld_unit_zero (S := S896) hz1, View.ld_unit_zero (S := S448) hz1, View.ld_unit_zero (S := S256) hz1]
  refine (headFine_apply _ _ x9 x10 x11 x12 p n).trans ?_
  rw [halfHi_blocks P x0 x1 x2 x3 x4 x5 x6 x7 x8 x9 x10 x11 x12 x13 x14 x15 hRW hWf hbu hbr hbe p]
  unfold fine head
  simp only [hO3W, hO3b, hO4W, hO4b]

/-- The hidden output block at (p, j): the two stores side by side are the hidden row. -/
theorem hidden_point (P : Params) (x0 : Vec Ideal S512x3 .f32) (x1 : Vec Ideal S512x896 .f32) (x2 : Vec Ideal S896x2688 .bf16)
    (x3 : Vec Ideal S2x1344 .f32) (x4 : Vec Ideal S3x1344 .f32) (x5 : Vec Ideal S448x448 .bf16) (x6 : Vec Ideal S448 .f32)
    (x7 : Vec Ideal S448x256 .bf16) (x8 : Vec Ideal S256 .f32) (x9 : Vec Ideal S448x448 .bf16) (x10 : Vec Ideal S448 .f32)
    (x11 : Vec Ideal S448x256 .bf16) (x12 : Vec Ideal S256 .f32) (x13 x14 x15 : Vec Ideal S896 .f32)
    (hRW : ∀ i, x2 i = P.RW i) (hWc : ∀ i, x3 i = P.Wc i) (hWf : ∀ i, x4 i = P.Wf i)
    (hbu : ∀ i, x13 i = P.bu i) (hbr : ∀ i, x14 i = P.br i) (hbe : ∀ i, x15 i = P.be i) (y : S512x896.Idx) :
    out0_18 (F := Ideal) x0 x1 x2 x3 x4 x5 x6 x7 x8 x9 x10 x11 x12 x13 x14 x15 y
      = hidden P (fun k => x0 (ix2 (y 0) k)) (fun k => x1 (ix2 (y 0) k)) (y 1) := by
  unfold out0_18
  refine View.canon_apply_of_pieces (Val := Elt Ideal)
    (fun y : S512x896.Idx => hidden P (fun k => x0 (ix2 (y 0) k)) (fun k => x1 (ix2 (y 0) k)) (y 1))
    _ ?_ y (cover0_18 _ _ y)
  intro pc hpc
  rcases List.mem_cons.mp hpc with rfl | hpc
  · -- the fine half, stored into columns 448..895
    intro x
    obtain ⟨p, q, rfl⟩ : ∃ (p : Fin 512) (q : Fin 448), x = ix2 p q := ⟨x 0, x 1, eq_ix2 x⟩
    have e0 : (r0_10.idx (ix2 p q)) 0 = p := Fin.ext (by show 0 + 1 * p.val = p.val; omega)
    show _ = hidden P (fun k => x0 (ix2 ((r0_10.idx (ix2 p q)) 0) k)) (fun k => x1 (ix2 ((r0_10.idx (ix2 p q)) 0) k))
      ((r0_10.idx (ix2 p q)) 1)
    rw [e0, hidden_hi P _ _ ((r0_10.idx (ix2 p q)) 1) q (by show 448 + 1 * q.val = 448 + q.val; omega)]
    simp only [View.ld_unit_zero (S := S512x896) hz2, View.ld_unit_zero (S := S512x3) hz2, View.ld_unit_zero (S := S896x2688) hz2, View.ld_unit_zero (S := S448x448) hz2, View.ld_unit_zero (S := S448x256) hz2, View.ld_unit_zero (S := S896) hz1, View.ld_unit_zero (S := S448) hz1, View.ld_unit_zero (S := S256) hz1]
    exact congrFun (halfHi_blocks P x0 x1 x2 x3 x4 x5 x6 x7 x8 x9 x10 x11 x12 x13 x14 x15 hRW hWf hbu hbr hbe p) q
  rcases List.mem_cons.mp hpc with rfl | hpc
  · -- the coarse half, stored into columns 0..447
    intro x
    obtain ⟨p, q, rfl⟩ : ∃ (p : Fin 512) (q : Fin 448), x = ix2 p q := ⟨x 0, x 1, eq_ix2 x⟩
    have e0 : (r0_9.idx (ix2 p q)) 0 = p := Fin.ext (by show 0 + 1 * p.val = p.val; omega)
    show _ = hidden P (fun k => x0 (ix2 ((r0_9.idx (ix2 p q)) 0) k)) (fun k => x1 (ix2 ((r0_9.idx (ix2 p q)) 0) k))
      ((r0_9.idx (ix2 p q)) 1)
    rw [e0, hidden_lo P _ _ ((r0_9.idx (ix2 p q)) 1) q (by show 0 + 1 * q.val = q.val; omega)]
    simp only [View.ld_unit_zero (S := S512x896) hz2, View.ld_unit_zero (S := S512x3) hz2, View.ld_unit_zero (S := S896x2688) hz2, View.ld_unit_zero (S := S448x448) hz2, View.ld_unit_zero (S := S448x256) hz2, View.ld_unit_zero (S := S896) hz1, View.ld_unit_zero (S := S448) hz1, View.ld_unit_zero (S := S256) hz1]
    exact congrFun (halfLo_blocks P x0 x1 x2 x3 x4 x5 x6 x7 x8 x9 x10 x11 x12 x13 x14 x15 hRW hWc hbu hbr hbe p) q
  nomatch hpc

end Cert.KernelIdeal.Block

end
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.KernelArrays.lean ====
/-
  From the kernel's blocks to its three result arrays.

  The grid has 64 points; point t works on rows 512 · t .. 512 · t + 511. The two row-blocked inputs (the joined features and
  the hidden state) and the three outputs all move with t along the rows and never along the columns, and the fourteen
  parameter windows stay on the one block that is the whole array. So row p of the feature block at t is row 512 · t + p of
  the features joined along the columns — the two previous samples, then the current coarse sample —, row p of the hidden
  block is row 512 · t + p of the hidden state, and a parameter block is the parameter (the host's narrowed copies of the
  weight matrices holding the matrices' own entries). What point t writes back is therefore block t of the specification's
  array; the 64 blocks cover every row, so each output array ends holding the specification's array.
-/
import proofs.«144807_j55327768708091_2_alg».proof.Proof.Gen.KernelIdeal.Value
import proofs.«144807_j55327768708091_2_alg».proof.Proof.KernelPoint
import proofs.«144807_j55327768708091_2_alg».proof.Proof.LibJoinLayout
import Idealize.ShloMosaic.Lib.StableHlo.Run
import Idealize.ShloMosaic.Lib.Pipeline.Value

set_option maxRecDepth 16384

noncomputable section

namespace Cert.KernelIdeal.Arrays

open Cert.KernelIdeal Cert.KernelIdeal.Gen Cert.KernelIdeal.Value Cert.KernelIdeal.Block Idealize.ShloMosaic
  Idealize.ShloMosaic.TcCoe Idealize.SL.Sem Idealize.ShloMosaic.ValueIdx GruCell
open Idealize.ShloMosaic.Pipeline (Dat)

variable (m : (ℓ : Loc nD τ sig) → Buf (Elt Ideal) ℓ) (ρ : Dev nD → PrngReg)

/-- The cell's parameters as the kernel's argument arrays on core c. -/
def params (c : Dev nD) : Params :=
  ⟨(m ((c : Thread nD τ).loc main_arg3)),
   (m ((c : Thread nD τ).loc main_arg4)),
   (m ((c : Thread nD τ).loc main_arg5)),
   (m ((c : Thread nD τ).loc main_arg6)),
   (m ((c : Thread nD τ).loc main_arg7)),
   (m ((c : Thread nD τ).loc main_arg8)),
   (m ((c : Thread nD τ).loc main_arg9)),
   (m ((c : Thread nD τ).loc main_arg10)),
   (m ((c : Thread nD τ).loc main_arg11)),
   (m ((c : Thread nD τ).loc main_arg12)),
   (m ((c : Thread nD τ).loc main_arg13)),
   (m ((c : Thread nD τ).loc main_arg14)),
   (m ((c : Thread nD τ).loc main_arg15)),
   (m ((c : Thread nD τ).loc main_arg16))⟩

/-! ## What the host leaves in the arrays it writes before the launch -/

/-- The features joined along the columns. -/
theorem V_features (c : Dev nD) (r : Fin 32768) (k : Fin 3) : V m c main_v0 (ix2 r k) = xrow (m ((c : Thread nD τ).loc main_arg0)) (m ((c : Thread nD τ).loc main_arg2)) r k := by
  have e : (V m c main_v0 : S32768x3.Idx → EReal)
      = concatenate S32768x3 1 [⟨S32768x2, (m ((c : Thread nD τ).loc main_arg0))⟩, ⟨S32768x1, (m ((c : Thread nD τ).loc main_arg2))⟩] concatenates_S32768x2_S32768x1_S32768x3_d1 := by
    dsimp only [Gen.V, Gen.hostOps0]; after_results <;> rfl
  rw [e]
  unfold xrow
  by_cases h : k.val < 2
  · rw [dif_pos h]
    exact JoinLayout.concatenate_cols_left (m ((c : Thread nD τ).loc main_arg0)) (m ((c : Thread nD τ).loc main_arg2)) _ r k ⟨k.val, h⟩ rfl
  · rw [dif_neg h]
    exact JoinLayout.concatenate_cols_right (m ((c : Thread nD τ).loc main_arg0)) (m ((c : Thread nD τ).loc main_arg2)) _ r k (0 : Fin 1) (by show 0 + 2 = k.val; have := k.isLt; omega)

/-- The narrowed copy of a weight matrix that the host makes before the launch holds the matrix's own entries. -/
theorem V_main_v1 (c : Dev nD) (i : S896x2688.Idx) : V m c main_v1 i = (m ((c : Thread nD τ).loc main_arg3)) i := by
  have e : (V m c main_v1 : S896x2688.Idx → EReal) = truncf (F := Ideal) .bf16 (m ((c : Thread nD τ).loc main_arg3)) bitsLt_bf16_f32 := by
    dsimp only [Gen.V, Gen.hostOps0]; after_results <;> rfl
  rw [e]; rfl

/-- The narrowed copy of a weight matrix that the host makes before the launch holds the matrix's own entries. -/
theorem V_main_v2 (c : Dev nD) (i : S448x448.Idx) : V m c main_v2 i = (m ((c : Thread nD τ).loc main_arg6)) i := by
  have e : (V m c main_v2 : S448x448.Idx → EReal) = truncf (F := Ideal) .bf16 (m ((c : Thread nD τ).loc main_arg6)) bitsLt_bf16_f32 := by
    dsimp only [Gen.V, Gen.hostOps0]; after_results <;> rfl
  rw [e]; rfl

/-- The narrowed copy of a weight matrix that the host makes before the launch holds the matrix's own entries. -/
theorem V_main_v3 (c : Dev nD) (i : S448x256.Idx) : V m c main_v3 i = (m ((c : Thread nD τ).loc main_arg8)) i := by
  have e : (V m c main_v3 : S448x256.Idx → EReal) = truncf (F := Ideal) .bf16 (m ((c : Thread nD τ).loc main_arg8)) bitsLt_bf16_f32 := by
    dsimp only [Gen.V, Gen.hostOps0]; after_results <;> rfl
  rw [e]; rfl

/-- The narrowed copy of a weight matrix that the host makes before the launch holds the matrix's own entries. -/
theorem V_main_v4 (c : Dev nD) (i : S448x448.Idx) : V m c main_v4 i = (m ((c : Thread nD τ).loc main_arg10)) i := by
  have e : (V m c main_v4 : S448x448.Idx → EReal) = truncf (F := Ideal) .bf16 (m ((c : Thread nD τ).loc main_arg10)) bitsLt_bf16_f32 := by
    dsimp only [Gen.V, Gen.hostOps0]; after_results <;> rfl
  rw [e]; rfl

/-- The narrowed copy of a weight matrix that the host makes before the launch holds the matrix's own entries. -/
theorem V_main_v5 (c : Dev nD) (i : S448x256.Idx) : V m c main_v5 i = (m ((c : Thread nD τ).loc main_arg12)) i := by
  have e : (V m c main_v5 : S448x256.Idx → EReal) = truncf (F := Ideal) .bf16 (m ((c : Thread nD τ).loc main_arg12)) bitsLt_bf16_f32 := by
    dsimp only [Gen.V, Gen.hostOps0]; after_results <;> rfl
  rw [e]; rfl

/-! ## The index maps, decided over the 64 grid points -/

/-- The row-blocked windows sit on block row t and block column 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_16.index t (0 : Fin 2) = t.val ∧ win0_16.index t (1 : Fin 2) = 0
    ∧ win0_17.index t (0 : Fin 2) = t.val ∧ win0_17.index t (1 : Fin 2) = 0
    ∧ win0_18.index t (0 : Fin 2) = t.val ∧ win0_18.index t (1 : Fin 2) = 0 :=
  (by decide +kernel : ∀ t : Fin grid0.N, _)

/-- Every block row of an output is some point's. -/
theorem idx_onto16 : ∀ q0 : Fin 64, ∃ t : Fin cfg0.N, win0_16.index t (0 : Fin 2) = q0.val ∧ win0_16.index t (1 : Fin 2) = 0 :=
  (by decide +kernel : ∀ q0 : Fin 64, ∃ t : Fin grid0.N, _)

theorem idx_onto17 : ∀ q0 : Fin 64, ∃ t : Fin cfg0.N, win0_17.index t (0 : Fin 2) = q0.val ∧ win0_17.index t (1 : Fin 2) = 0 :=
  (by decide +kernel : ∀ q0 : Fin 64, ∃ t : Fin grid0.N, _)

theorem idx_onto18 : ∀ q0 : Fin 64, ∃ t : Fin cfg0.N, win0_18.index t (0 : Fin 2) = q0.val ∧ win0_18.index t (1 : Fin 2) = 0 :=
  (by decide +kernel : ∀ q0 : Fin 64, ∃ t : Fin grid0.N, _)

/-- The parameter windows stay on block 0. -/
theorem idx_zero2 : ∀ t : Fin cfg0.N, win0_2.index t (0 : Fin 2) = 0 ∧ win0_2.index t (1 : Fin 2) = 0 :=
  (by decide +kernel : ∀ t : Fin grid0.N, _)

theorem idx_zero3 : ∀ t : Fin cfg0.N, win0_3.index t (0 : Fin 2) = 0 ∧ win0_3.index t (1 : Fin 2) = 0 :=
  (by decide +kernel : ∀ t : Fin grid0.N, _)

theorem idx_zero4 : ∀ t : Fin cfg0.N, win0_4.index t (0 : Fin 2) = 0 ∧ win0_4.index t (1 : Fin 2) = 0 :=
  (by decide +kernel : ∀ t : Fin grid0.N, _)

theorem idx_zero5 : ∀ t : Fin cfg0.N, win0_5.index t (0 : Fin 2) = 0 ∧ win0_5.index t (1 : Fin 2) = 0 :=
  (by decide +kernel : ∀ t : Fin grid0.N, _)

theorem idx_zero6 : ∀ t : Fin cfg0.N, win0_6.index t (0 : Fin 1) = 0 :=
  (by decide +kernel : ∀ t : Fin grid0.N, _)

theorem idx_zero7 : ∀ t : Fin cfg0.N, win0_7.index t (0 : Fin 2) = 0 ∧ win0_7.index t (1 : Fin 2) = 0 :=
  (by decide +kernel : ∀ t : Fin grid0.N, _)

theorem idx_zero8 : ∀ t : Fin cfg0.N, win0_8.index t (0 : Fin 1) = 0 :=
  (by decide +kernel : ∀ t : Fin grid0.N, _)

theorem idx_zero9 : ∀ t : Fin cfg0.N, win0_9.index t (0 : Fin 2) = 0 ∧ win0_9.index t (1 : Fin 2) = 0 :=
  (by decide +kernel : ∀ t : Fin grid0.N, _)

theorem idx_zero10 : ∀ t : Fin cfg0.N, win0_10.index t (0 : Fin 1) = 0 :=
  (by decide +kernel : ∀ t : Fin grid0.N, _)

theorem idx_zero11 : ∀ t : Fin cfg0.N, win0_11.index t (0 : Fin 2) = 0 ∧ win0_11.index t (1 : Fin 2) = 0 :=
  (by decide +kernel : ∀ t : Fin grid0.N, _)

theorem idx_zero12 : ∀ t : Fin cfg0.N, win0_12.index t (0 : Fin 1) = 0 :=
  (by decide +kernel : ∀ t : Fin grid0.N, _)

theorem idx_zero13 : ∀ t : Fin cfg0.N, win0_13.index t (0 : Fin 1) = 0 :=
  (by decide +kernel : ∀ t : Fin grid0.N, _)

theorem idx_zero14 : ∀ t : Fin cfg0.N, win0_14.index t (0 : Fin 1) = 0 :=
  (by decide +kernel : ∀ t : Fin grid0.N, _)

theorem idx_zero15 : ∀ t : Fin cfg0.N, win0_15.index t (0 : Fin 1) = 0 :=
  (by decide +kernel : ∀ t : Fin grid0.N, _)

/-! ## The input blocks at a point -/

/-- Row 512 · t + p of an array of 32768 rows. -/
def rowOf (t : Fin cfg0.N) (p : Fin 512) : Fin 32768 :=
  ⟨t.val * 512 + p.val, by have ht : t.val < 64 := lt_of_lt_of_eq t.isLt N_0; have := p.isLt; omega⟩

/-- Row p of the feature block at t is row 512 · t + p of the features. -/
theorem xblock_row (c : Dev nD) (t : Fin cfg0.N) (p : Fin 512) :
    (fun k : Fin 3 => iblk m c 0 t (ix2 p k)) = xrow (m ((c : Thread nD τ).loc main_arg0)) (m ((c : Thread nD τ).loc main_arg2)) (rowOf t p) := by
  funext k
  have e : ((cfg0.win 0).blk t).view.emb (ix2 p k) = ix2 (rowOf t p) k := by
    have h := idx_rows t
    funext a; apply Fin.ext
    match a with
    | ⟨0, _⟩ => show win0_0.index t (0 : Fin 2) * 512 + 1 * p.val = t.val * 512 + p.val; rw [h.1]; omega
    | ⟨1, _⟩ => show win0_0.index t (1 : Fin 2) * 3 + 1 * k.val = k.val; rw [h.2.1]; omega
  show V m c main_v0 (((cfg0.win 0).blk t).view.emb (ix2 p k)) = _
  rw [e]
  exact V_features m c (rowOf t p) k

/-- Row p of the hidden block at t is row 512 · t + p of the hidden state. -/
theorem hblock_row (c : Dev nD) (t : Fin cfg0.N) (p : Fin 512) :
    (fun k : Fin 896 => iblk m c 1 t (ix2 p k)) = hrow (m ((c : Thread nD τ).loc main_arg1)) (rowOf t p) := by
  funext k
  have e : ((cfg0.win 1).blk t).view.emb (ix2 p k) = ix2 (rowOf t p) k := by
    have h := idx_rows t
    funext a; apply Fin.ext
    match a with
    | ⟨0, _⟩ => show win0_1.index t (0 : Fin 2) * 512 + 1 * p.val = t.val * 512 + p.val; rw [h.2.2.1]; omega
    | ⟨1, _⟩ => show win0_1.index t (1 : Fin 2) * 896 + 1 * k.val = k.val; rw [h.2.2.2.1]; omega
  show V m c main_arg1 (((cfg0.win 1).blk t).view.emb (ix2 p k)) = _
  rw [e, V_main_arg1]
  rfl

/-- A parameter window's block is the parameter. -/
theorem blk2 (c : Dev nD) (t : Fin cfg0.N) (i : S896x2688.Idx) : iblk m c 2 t i = (params m c).RW i := by
  have e : ((cfg0.win 2).blk t).view.emb i = i := by
    funext a; apply Fin.ext
    match a with
    | ⟨0, _⟩ => show win0_2.index t (0 : Fin 2) * 896 + 1 * (i 0).val = (i 0).val; rw [(idx_zero2 t).1]; omega
    | ⟨1, _⟩ => show win0_2.index t (1 : Fin 2) * 2688 + 1 * (i 1).val = (i 1).val; rw [(idx_zero2 t).2]; omega
  show V m c main_v1 (((cfg0.win 2).blk t).view.emb i) = _
  rw [e, V_main_v1]; rfl

theorem blk3 (c : Dev nD) (t : Fin cfg0.N) (i : S2x1344.Idx) : iblk m c 3 t i = (params m c).Wc i := by
  have e : ((cfg0.win 3).blk t).view.emb i = i := by
    funext a; apply Fin.ext
    match a with
    | ⟨0, _⟩ => show win0_3.index t (0 : Fin 2) * 2 + 1 * (i 0).val = (i 0).val; rw [(idx_zero3 t).1]; omega
    | ⟨1, _⟩ => show win0_3.index t (1 : Fin 2) * 1344 + 1 * (i 1).val = (i 1).val; rw [(idx_zero3 t).2]; omega
  show V m c main_arg4 (((cfg0.win 3).blk t).view.emb i) = _
  rw [e, V_main_arg4]; rfl

theorem blk4 (c : Dev nD) (t : Fin cfg0.N) (i : S3x1344.Idx) : iblk m c 4 t i = (params m c).Wf i := by
  have e : ((cfg0.win 4).blk t).view.emb i = i := by
    funext a; apply Fin.ext
    match a with
    | ⟨0, _⟩ => show win0_4.index t (0 : Fin 2) * 3 + 1 * (i 0).val = (i 0).val; rw [(idx_zero4 t).1]; omega
    | ⟨1, _⟩ => show win0_4.index t (1 : Fin 2) * 1344 + 1 * (i 1).val = (i 1).val; rw [(idx_zero4 t).2]; omega
  show V m c main_arg5 (((cfg0.win 4).blk t).view.emb i) = _
  rw [e, V_main_arg5]; rfl

theorem blk5 (c : Dev nD) (t : Fin cfg0.N) (i : S448x448.Idx) : iblk m c 5 t i = (params m c).O1W i := by
  have e : ((cfg0.win 5).blk t).view.emb i = i := by
    funext a; apply Fin.ext
    match a with
    | ⟨0, _⟩ => show win0_5.index t (0 : Fin 2) * 448 + 1 * (i 0).val = (i 0).val; rw [(idx_zero5 t).1]; omega
    | ⟨1, _⟩ => show win0_5.index t (1 : Fin 2) * 448 + 1 * (i 1).val = (i 1).val; rw [(idx_zero5 t).2]; omega
  show V m c main_v2 (((cfg0.win 5).blk t).view.emb i) = _
  rw [e, V_main_v2]; rfl

theorem blk6 (c : Dev nD) (t : Fin cfg0.N) (i : S448.Idx) : iblk m c 6 t i = (params m c).O1b i := by
  have e : ((cfg0.win 6).blk t).view.emb i = i := by
    funext a; apply Fin.ext
    match a with
    | ⟨0, _⟩ => show win0_6.index t (0 : Fin 1) * 448 + 1 * (i 0).val = (i 0).val; rw [idx_zero6 t]; omega
  show V m c main_arg7 (((cfg0.win 6).blk t).view.emb i) = _
  rw [e, V_main_arg7]; rfl

theorem blk7 (c : Dev nD) (t : Fin cfg0.N) (i : S448x256.Idx) : iblk m c 7 t i = (params m c).O2W i := by
  have e : ((cfg0.win 7).blk t).view.emb i = i := by
    funext a; apply Fin.ext
    match a with
    | ⟨0, _⟩ => show win0_7.index t (0 : Fin 2) * 448 + 1 * (i 0).val = (i 0).val; rw [(idx_zero7 t).1]; omega
    | ⟨1, _⟩ => show win0_7.index t (1 : Fin 2) * 256 + 1 * (i 1).val = (i 1).val; rw [(idx_zero7 t).2]; omega
  show V m c main_v3 (((cfg0.win 7).blk t).view.emb i) = _
  rw [e, V_main_v3]; rfl

theorem blk8 (c : Dev nD) (t : Fin cfg0.N) (i : S256.Idx) : iblk m c 8 t i = (params m c).O2b i := by
  have e : ((cfg0.win 8).blk t).view.emb i = i := by
    funext a; apply Fin.ext
    match a with
    | ⟨0, _⟩ => show win0_8.index t (0 : Fin 1) * 256 + 1 * (i 0).val = (i 0).val; rw [idx_zero8 t]; omega
  show V m c main_arg9 (((cfg0.win 8).blk t).view.emb i) = _
  rw [e, V_main_arg9]; rfl

theorem blk9 (c : Dev nD) (t : Fin cfg0.N) (i : S448x448.Idx) : iblk m c 9 t i = (params m c).O3W i := by
  have e : ((cfg0.win 9).blk t).view.emb i = i := by
    funext a; apply Fin.ext
    match a with
    | ⟨0, _⟩ => show win0_9.index t (0 : Fin 2) * 448 + 1 * (i 0).val = (i 0).val; rw [(idx_zero9 t).1]; omega
    | ⟨1, _⟩ => show win0_9.index t (1 : Fin 2) * 448 + 1 * (i 1).val = (i 1).val; rw [(idx_zero9 t).2]; omega
  show V m c main_v4 (((cfg0.win 9).blk t).view.emb i) = _
  rw [e, V_main_v4]; rfl

theorem blk10 (c : Dev nD) (t : Fin cfg0.N) (i : S448.Idx) : iblk m c 10 t i = (params m c).O3b i := by
  have e : ((cfg0.win 10).blk t).view.emb i = i := by
    funext a; apply Fin.ext
    match a with
    | ⟨0, _⟩ => show win0_10.index t (0 : Fin 1) * 448 + 1 * (i 0).val = (i 0).val; rw [idx_zero10 t]; omega
  show V m c main_arg11 (((cfg0.win 10).blk t).view.emb i) = _
  rw [e, V_main_arg11]; rfl

theorem blk11 (c : Dev nD) (t : Fin cfg0.N) (i : S448x256.Idx) : iblk m c 11 t i = (params m c).O4W i := by
  have e : ((cfg0.win 11).blk t).view.emb i = i := by
    funext a; apply Fin.ext
    match a with
    | ⟨0, _⟩ => show win0_11.index t (0 : Fin 2) * 448 + 1 * (i 0).val = (i 0).val; rw [(idx_zero11 t).1]; omega
    | ⟨1, _⟩ => show win0_11.index t (1 : Fin 2) * 256 + 1 * (i 1).val = (i 1).val; rw [(idx_zero11 t).2]; omega
  show V m c main_v5 (((cfg0.win 11).blk t).view.emb i) = _
  rw [e, V_main_v5]; rfl

theorem blk12 (c : Dev nD) (t : Fin cfg0.N) (i : S256.Idx) : iblk m c 12 t i = (params m c).O4b i := by
  have e : ((cfg0.win 12).blk t).view.emb i = i := by
    funext a; apply Fin.ext
    match a with
    | ⟨0, _⟩ => show win0_12.index t (0 : Fin 1) * 256 + 1 * (i 0).val = (i 0).val; rw [idx_zero12 t]; omega
  show V m c main_arg13 (((cfg0.win 12).blk t).view.emb i) = _
  rw [e, V_main_arg13]; rfl

theorem blk13 (c : Dev nD) (t : Fin cfg0.N) (i : S896.Idx) : iblk m c 13 t i = (params m c).bu i := by
  have e : ((cfg0.win 13).blk t).view.emb i = i := by
    funext a; apply Fin.ext
    match a with
    | ⟨0, _⟩ => show win0_13.index t (0 : Fin 1) * 896 + 1 * (i 0).val = (i 0).val; rw [idx_zero13 t]; omega
  show V m c main_arg14 (((cfg0.win 13).blk t).view.emb i) = _
  rw [e, V_main_arg14]; rfl

theorem blk14 (c : Dev nD) (t : Fin cfg0.N) (i : S896.Idx) : iblk m c 14 t i = (params m c).br i := by
  have e : ((cfg0.win 14).blk t).view.emb i = i := by
    funext a; apply Fin.ext
    match a with
    | ⟨0, _⟩ => show win0_14.index t (0 : Fin 1) * 896 + 1 * (i 0).val = (i 0).val; rw [idx_zero14 t]; omega
  show V m c main_arg15 (((cfg0.win 14).blk t).view.emb i) = _
  rw [e, V_main_arg15]; rfl

theorem blk15 (c : Dev nD) (t : Fin cfg0.N) (i : S896.Idx) : iblk m c 15 t i = (params m c).be i := by
  have e : ((cfg0.win 15).blk t).view.emb i = i := by
    funext a; apply Fin.ext
    match a with
    | ⟨0, _⟩ => show win0_15.index t (0 : Fin 1) * 896 + 1 * (i 0).val = (i 0).val; rw [idx_zero15 t]; omega
  show V m c main_arg16 (((cfg0.win 15).blk t).view.emb i) = _
  rw [e, V_main_arg16]; rfl

/-! ## Output window 16 -/

/-- An index of the array is in point t's block iff each coordinate is in the block's range on its axis. -/
theorem mem_blk16 (t : Fin cfg0.N) (i : S32768x256.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v6_0).slice (win0_16.rect t)).set ↔ _
  rw [View.set_slice_whole, Rect.mem_set_unit]
  exact Iff.rfl

/-- Entry (p, j) of point t's block sits at row 512 · t + p of the array, in the same column. -/
theorem emb16 (t : Fin cfg0.N) (p : Fin 512) (j : Fin 256) :
    ((cfg0.win 16).blk t).view.emb (ix2 p j) = ix2 (rowOf t p) j := by
  have h := idx_rows t
  funext a; apply Fin.ext
  match a with
  | ⟨0, _⟩ => show win0_16.index t (0 : Fin 2) * 512 + 1 * p.val = t.val * 512 + p.val; rw [h.2.2.2.2.1]; omega
  | ⟨1, _⟩ => show win0_16.index t (1 : Fin 2) * 256 + 1 * j.val = j.val; rw [h.2.2.2.2.2.1]; omega

/-- What point t writes back is block t of the specification's array. -/
theorem flushed16_eq (c : Dev nD) (t : Fin cfg0.N) :
    (dats m 0 c).flushed 16 t = ((cfg0.win 16).blk t).view.read (Elt Ideal) (coarseArr (params m c) (m ((c : Thread nD τ).loc main_arg0)) (m ((c : Thread nD τ).loc main_arg2)) (m ((c : Thread nD τ).loc main_arg1))) := by
  rw [flushed16]
  funext y
  obtain ⟨p, j, rfl⟩ : ∃ (p : Fin 512) (j : Fin 256), y = ix2 p j := ⟨y 0, y 1, eq_ix2 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p j)
    = coarseArr (params m c) (m ((c : Thread nD τ).loc main_arg0)) (m ((c : Thread nD τ).loc main_arg2)) (m ((c : Thread nD τ).loc main_arg1)) (((cfg0.win 16).blk t).view.emb (ix2 p j))
  rw [emb16 t p j]
  refine (coarse_point (params m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (blk2 m c t) (blk3 m c t) (blk5 m c t) (blk6 m c t) (blk7 m c t) (blk8 m c t) (blk13 m c t) (blk14 m c t) (blk15 m c t) p j).trans ?_
  show _ = coarse (params m c) (xrow (m ((c : Thread nD τ).loc main_arg0)) (m ((c : Thread nD τ).loc main_arg2)) (rowOf t p)) (hrow (m ((c : Thread nD τ).loc main_arg1)) (rowOf t p)) j
  rw [xblock_row m c t p, hblock_row m c t p]

/-- Every row of the array falls in the block of the point 512 rows wide that holds it. -/
theorem cover16 (i : S32768x256.Idx) :
    ∃ t : Fin cfg0.N, (cfg0.win 16).flush t = true ∧ i ∈ ((cfg0.win 16).blk t).view.set := by
  have hi0 : (i 0).val < 32768 := (i 0).isLt
  have hi1 : (i 1).val < 256 := (i 1).isLt
  obtain ⟨t, ht0, ht1⟩ := idx_onto16 ⟨(i 0).val / 512, by omega⟩
  refine ⟨t, flush0_16 t, ?_⟩
  rw [mem_blk16]
  intro a
  match a with
  | ⟨0, _⟩ =>
    show win0_16.index t (0 : Fin 2) * 512 ≤ (i 0).val ∧ (i 0).val < win0_16.index t (0 : Fin 2) * 512 + 512
    rw [ht0]; show (i 0).val / 512 * 512 ≤ (i 0).val ∧ (i 0).val < (i 0).val / 512 * 512 + 512; omega
  | ⟨1, _⟩ =>
    show win0_16.index t (1 : Fin 2) * 256 ≤ (i 1).val ∧ (i 1).val < win0_16.index t (1 : Fin 2) * 256 + 256
    rw [ht1]; omega

/-- The array after the run. -/
theorem final16 (c : Dev nD) : (dats m 0 c).arrAt 16 cfg0.N = coarseArr (params m c) (m ((c : Thread nD τ).loc main_arg0)) (m ((c : Thread nD τ).loc main_arg2)) (m ((c : Thread nD τ).loc main_arg1)) :=
  (dats m 0 c).arrAt_eq_of_cover 16 _ (fun t _ => flushed16_eq m c t) cover16

/-! ## Output window 17 -/

/-- An index of the array is in point t's block iff each coordinate is in the block's range on its axis. -/
theorem mem_blk17 (t : Fin cfg0.N) (i : S32768x256.Idx) :
    i ∈ ((cfg0.win 17).blk t).view.set ↔ ∀ a : Fin 2, win0_17.index t a * S512x256.size a ≤ (i a).val
      ∧ (i a).val < win0_17.index t a * S512x256.size a + S512x256.size a := by
  show i ∈ ((View.whole main_v6_1).slice (win0_17.rect t)).set ↔ _
  rw [View.set_slice_whole, Rect.mem_set_unit]
  exact Iff.rfl

/-- Entry (p, j) of point t's block sits at row 512 · t + p of the array, in the same column. -/
theorem emb17 (t : Fin cfg0.N) (p : Fin 512) (j : Fin 256) :
    ((cfg0.win 17).blk t).view.emb (ix2 p j) = ix2 (rowOf t p) j := by
  have h := idx_rows t
  funext a; apply Fin.ext
  match a with
  | ⟨0, _⟩ => show win0_17.index t (0 : Fin 2) * 512 + 1 * p.val = t.val * 512 + p.val; rw [h.2.2.2.2.2.2.1]; omega
  | ⟨1, _⟩ => show win0_17.index t (1 : Fin 2) * 256 + 1 * j.val = j.val; rw [h.2.2.2.2.2.2.2.1]; omega

/-- What point t writes back is block t of the specification's array. -/
theorem flushed17_eq (c : Dev nD) (t : Fin cfg0.N) :
    (dats m 0 c).flushed 17 t = ((cfg0.win 17).blk t).view.read (Elt Ideal) (fineArr (params m c) (m ((c : Thread nD τ).loc main_arg0)) (m ((c : Thread nD τ).loc main_arg2)) (m ((c : Thread nD τ).loc main_arg1))) := by
  rw [flushed17]
  funext y
  obtain ⟨p, j, rfl⟩ : ∃ (p : Fin 512) (j : Fin 256), y = ix2 p j := ⟨y 0, y 1, eq_ix2 y⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p j)
    = fineArr (params m c) (m ((c : Thread nD τ).loc main_arg0)) (m ((c : Thread nD τ).loc main_arg2)) (m ((c : Thread nD τ).loc main_arg1)) (((cfg0.win 17).blk t).view.emb (ix2 p j))
  rw [emb17 t p j]
  refine (fine_point (params m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (blk2 m c t) (blk4 m c t) (blk9 m c t) (blk10 m c t) (blk11 m c t) (blk12 m c t) (blk13 m c t) (blk14 m c t) (blk15 m c t) p j).trans ?_
  show _ = fine (params m c) (xrow (m ((c : Thread nD τ).loc main_arg0)) (m ((c : Thread nD τ).loc main_arg2)) (rowOf t p)) (hrow (m ((c : Thread nD τ).loc main_arg1)) (rowOf t p)) j
  rw [xblock_row m c t p, hblock_row m c t p]

/-- Every row of the array falls in the block of the point 512 rows wide that holds it. -/
theorem cover17 (i : S32768x256.Idx) :
    ∃ t : Fin cfg0.N, (cfg0.win 17).flush t = true ∧ i ∈ ((cfg0.win 17).blk t).view.set := by
  have hi0 : (i 0).val < 32768 := (i 0).isLt
  have hi1 : (i 1).val < 256 := (i 1).isLt
  obtain ⟨t, ht0, ht1⟩ := idx_onto17 ⟨(i 0).val / 512, by omega⟩
  refine ⟨t, flush0_17 t, ?_⟩
  rw [mem_blk17]
  intro a
  match a with
  | ⟨0, _⟩ =>
    show win0_17.index t (0 : Fin 2) * 512 ≤ (i 0).val ∧ (i 0).val < win0_17.index t (0 : Fin 2) * 512 + 512
    rw [ht0]; show (i 0).val / 512 * 512 ≤ (i 0).val ∧ (i 0).val < (i 0).val / 512 * 512 + 512; omega
  | ⟨1, _⟩ =>
    show win0_17.index t (1 : Fin 2) * 256 ≤ (i 1).val ∧ (i 1).val < win0_17.index t (1 : Fin 2) * 256 + 256
    rw [ht1]; omega

/-- The array after the run. -/
theorem final17 (c : Dev nD) : (dats m 0 c).arrAt 17 cfg0.N = fineArr (params m c) (m ((c : Thread nD τ).loc main_arg0)) (m ((c : Thread nD τ).loc main_arg2)) (m ((c : Thread nD τ).loc main_arg1)) :=
  (dats m 0 c).arrAt_eq_of_cover 17 _ (fun t _ => flushed17_eq m c t) cover17

/-! ## Output window 18 -/

/-- An index of the array is in point t's block iff each coordinate is in the block's range on its axis. -/
theorem mem_blk18 (t : Fin cfg0.N) (i : S32768x896.Idx) :
    i ∈ ((cfg0.win 18).blk t).view.set ↔ ∀ a : Fin 2, win0_18.index t a * S512x896.size a ≤ (i a).val
      ∧ (i a).val < win0_18.index t a * S512x896.size a + S512x896.size a := by
  show i ∈ ((View.whole main_v6_2).slice (win0_18.rect t)).set ↔ _
  rw [View.set_slice_whole, Rect.mem_set_unit]
  exact Iff.rfl

/-- Entry (p, j) of point t's block sits at row 512 · t + p of the array, in the same column. -/
theorem emb18 (t : Fin cfg0.N) (p : Fin 512) (j : Fin 896) :
    ((cfg0.win 18).blk t).view.emb (ix2 p j) = ix2 (rowOf t p) j := by
  have h := idx_rows t
  funext a; apply Fin.ext
  match a with
  | ⟨0, _⟩ => show win0_18.index t (0 : Fin 2) * 512 + 1 * p.val = t.val * 512 + p.val; rw [h.2.2.2.2.2.2.2.2.1]; omega
  | ⟨1, _⟩ => show win0_18.index t (1 : Fin 2) * 896 + 1 * j.val = j.val; rw [h.2.2.2.2.2.2.2.2.2]; omega

/-- What point t writes back is block t of the specification's array. -/
theorem flushed18_eq (c : Dev nD) (t : Fin cfg0.N) :
    (dats m 0 c).flushed 18 t = ((cfg0.win 18).blk t).view.read (Elt Ideal) (hiddenArr (params m c) (m ((c : Thread nD τ).loc main_arg0)) (m ((c : Thread nD τ).loc main_arg2)) (m ((c : Thread nD τ).loc main_arg1))) := by
  rw [flushed18]
  funext y
  obtain ⟨p, j, rfl⟩ : ∃ (p : Fin 512) (j : Fin 896), y = ix2 p j := ⟨y 0, y 1, eq_ix2 y⟩
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p j)
    = hiddenArr (params m c) (m ((c : Thread nD τ).loc main_arg0)) (m ((c : Thread nD τ).loc main_arg2)) (m ((c : Thread nD τ).loc main_arg1)) (((cfg0.win 18).blk t).view.emb (ix2 p j))
  rw [emb18 t p j]
  refine (hidden_point (params m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (blk2 m c t) (blk3 m c t) (blk4 m c t) (blk13 m c t) (blk14 m c t) (blk15 m c t) (ix2 p j)).trans ?_
  show _ = hidden (params m c) (xrow (m ((c : Thread nD τ).loc main_arg0)) (m ((c : Thread nD τ).loc main_arg2)) (rowOf t p)) (hrow (m ((c : Thread nD τ).loc main_arg1)) (rowOf t p)) j
  rw [xblock_row m c t p, hblock_row m c t p]

/-- Every row of the array falls in the block of the point 512 rows wide that holds it. -/
theorem cover18 (i : S32768x896.Idx) :
    ∃ t : Fin cfg0.N, (cfg0.win 18).flush t = true ∧ i ∈ ((cfg0.win 18).blk t).view.set := by
  have hi0 : (i 0).val < 32768 := (i 0).isLt
  have hi1 : (i 1).val < 896 := (i 1).isLt
  obtain ⟨t, ht0, ht1⟩ := idx_onto18 ⟨(i 0).val / 512, by omega⟩
  refine ⟨t, flush0_18 t, ?_⟩
  rw [mem_blk18]
  intro a
  match a with
  | ⟨0, _⟩ =>
    show win0_18.index t (0 : Fin 2) * 512 ≤ (i 0).val ∧ (i 0).val < win0_18.index t (0 : Fin 2) * 512 + 512
    rw [ht0]; show (i 0).val / 512 * 512 ≤ (i 0).val ∧ (i 0).val < (i 0).val / 512 * 512 + 512; omega
  | ⟨1, _⟩ =>
    show win0_18.index t (1 : Fin 2) * 896 ≤ (i 1).val ∧ (i 1).val < win0_18.index t (1 : Fin 2) * 896 + 896
    rw [ht1]; omega

/-- The array after the run. -/
theorem final18 (c : Dev nD) : (dats m 0 c).arrAt 18 cfg0.N = hiddenArr (params m c) (m ((c : Thread nD τ).loc main_arg0)) (m ((c : Thread nD τ).loc main_arg2)) (m ((c : Thread nD τ).loc main_arg1)) :=
  (dats m 0 c).arrAt_eq_of_cover 18 _ (fun t _ => flushed18_eq m c t) cover18

/-! ## The run, read -/

/-- The kernel's run: each result array at the specification's array of the arguments, the arguments unchanged. -/
theorem run : θ_run defs (onTc (τ := τ) (main (F := Ideal))) ⟨m, fun _ => 0, ρ⟩ fun r => ∀ c : Dev nD,
      r.2.mem ((c : Thread nD τ).loc main_v6_0) = coarseArr (params m c) (m ((c : Thread nD τ).loc main_arg0)) (m ((c : Thread nD τ).loc main_arg2)) (m ((c : Thread nD τ).loc main_arg1))
      ∧ r.2.mem ((c : Thread nD τ).loc main_v6_1) = fineArr (params m c) (m ((c : Thread nD τ).loc main_arg0)) (m ((c : Thread nD τ).loc main_arg2)) (m ((c : Thread nD τ).loc main_arg1))
      ∧ r.2.mem ((c : Thread nD τ).loc main_v6_2) = hiddenArr (params m c) (m ((c : Thread nD τ).loc main_arg0)) (m ((c : Thread nD τ).loc main_arg2)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final16 m c), (h c).2.1.trans (final17 m c),
      (h c).2.2.1.trans (final18 m c), (h c).2.2.2⟩)
    (run_blocks m ρ)

end Cert.KernelIdeal.Arrays

end
-- ==== Proof.RefProjections.lean ====
/-
  The reference program, one batch row at a time, is the cell of the specification.

  The reference forms R = h · R_W for all rows at once and cuts it into three gate blocks of 896 columns; it forms the coarse
  and the fine input projections as products with 2 and 3 contracted positions (the fine one over the features joined along the
  columns), cuts each into three gate blocks of 448 columns, and joins a coarse and a fine block side by side into a gate
  block of 896 columns. So at a column o + q of the hidden state (o = 0 on the coarse half, o = 448 on the fine half) the
  three input-gate entries are the coarse (or fine) projection at q, 448 + q and 896 + q, and the three recurrent entries
  sit at o + q, 896 + o + q and 1792 + o + q. The gates are then the specification's, the two logistic functions being
  written out as the quotient 1 / (1 + e^(−x)). A head slices its half out of the new hidden state and applies two products
  with a bias row after each and a maximum with zero between them. Sums over 2 and 3 positions are written out term by
  term, in the order of the positions.
-/
import proofs.«144807_j55327768708091_2_alg».proof.Proof.Gen.ReferenceIdeal.Read
import proofs.«144807_j55327768708091_2_alg».proof.Proof.CellSpec
import proofs.«144807_j55327768708091_2_alg».proof.Proof.LibJoinLayout
import proofs.«144807_j55327768708091_2_alg».proof.Proof.LibIndexReads
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx GruCell IndexReads

variable (x0 : (⟨S32768x2, .f32⟩ : BufTy).Contents (Elt Ideal)) (x1 : (⟨S32768x896, .f32⟩ : BufTy).Contents (Elt Ideal)) (x2 : (⟨S32768x1, .f32⟩ : BufTy).Contents (Elt Ideal))
  (x3 : (⟨S896x2688, .f32⟩ : BufTy).Contents (Elt Ideal)) (x4 : (⟨S2x1344, .f32⟩ : BufTy).Contents (Elt Ideal)) (x5 : (⟨S3x1344, .f32⟩ : BufTy).Contents (Elt Ideal))
  (x6 : (⟨S448x448, .f32⟩ : BufTy).Contents (Elt Ideal)) (x7 : (⟨S448, .f32⟩ : BufTy).Contents (Elt Ideal)) (x8 : (⟨S448x256, .f32⟩ : BufTy).Contents (Elt Ideal)) (x9 : (⟨S256, .f32⟩ : BufTy).Contents (Elt Ideal))
  (x10 : (⟨S448x448, .f32⟩ : BufTy).Contents (Elt Ideal)) (x11 : (⟨S448, .f32⟩ : BufTy).Contents (Elt Ideal)) (x12 : (⟨S448x256, .f32⟩ : BufTy).Contents (Elt Ideal)) (x13 : (⟨S256, .f32⟩ : BufTy).Contents (Elt Ideal))
  (x14 x15 x16 : (⟨S896, .f32⟩ : BufTy).Contents (Elt Ideal))

/-- The cell's parameters as the reference's arguments. -/
def params : Params := ⟨x3, x4, x5, x6, x7, x8, x9, x10, x11, x12, x13, x14, x15, x16⟩

/-! ## The recurrent product and the input projections -/

/-- R at (b, j). -/
theorem recur_ref (b : Fin 32768) (j : Fin 2688) :
    val_main_v0 (F := Ideal) x1 x3 (ix2 b j) = recur (params x3 x4 x5 x6 x7 x8 x9 x10 x11 x12 x13 x14 x15 x16) (hrow x1 b) j := by
  rw [val_main_v0_apply]
  unfold recur hrow
  refine Finset.sum_congr rfl fun k _ => ?_
  rw [ix2_of_vals (lidx_main_v0 (ix2 b j) k) b k rfl rfl, ix2_of_vals (ridx_main_v0 (ix2 b j) k) k j rfl rfl]
  rfl

/-- The features joined along the columns, at (b, k): the row's k-th feature. -/
theorem features_ref (b : Fin 32768) (k : Fin 3) : val_main_v8 (F := Ideal) x0 x2 (ix2 b k) = xrow x0 x2 b k := by
  unfold val_main_v8 xrow
  by_cases h : k.val < 2
  · rw [dif_pos h]
    exact JoinLayout.concatenate_cols_left x0 x2 _ b k ⟨k.val, h⟩ rfl
  · rw [dif_neg h]
    exact JoinLayout.concatenate_cols_right x0 x2 _ b k (0 : Fin 1) (by show 0 + 2 = k.val; have := k.isLt; omega)

/-- The coarse input projection at (b, j). -/
theorem inCoarse_ref (b : Fin 32768) (j : Fin 1344) :
    val_main_v4 (F := Ideal) x0 x4 (ix2 b j) = inCoarse (params x3 x4 x5 x6 x7 x8 x9 x10 x11 x12 x13 x14 x15 x16) (xrow x0 x2 b) j := by
  rw [val_main_v4_apply, Fin.sum_univ_two,
    ix2_of_vals (lidx_main_v4 (ix2 b j) 0) b 0 rfl rfl, ix2_of_vals (ridx_main_v4 (ix2 b j) 0) 0 j rfl rfl,
    ix2_of_vals (lidx_main_v4 (ix2 b j) 1) b 1 rfl rfl, ix2_of_vals (ridx_main_v4 (ix2 b j) 1) 1 j rfl rfl]
  rfl

/-- The fine input projection at (b, j). -/
theorem inFine_ref (b : Fin 32768) (j : Fin 1344) :
    val_main_v9 (F := Ideal) x0 x2 x5 (ix2 b j) = inFine (params x3 x4 x5 x6 x7 x8 x9 x10 x11 x12 x13 x14 x15 x16) (xrow x0 x2 b) j := by
  rw [val_main_v9_apply, Fin.sum_univ_three,
    ix2_of_vals (lidx_main_v9 (ix2 b j) 0) b 0 rfl rfl, ix2_of_vals (ridx_main_v9 (ix2 b j) 0) 0 j rfl rfl,
    ix2_of_vals (lidx_main_v9 (ix2 b j) 1) b 1 rfl rfl, ix2_of_vals (ridx_main_v9 (ix2 b j) 1) 1 j rfl rfl,
    ix2_of_vals (lidx_main_v9 (ix2 b j) 2) b 2 rfl rfl, ix2_of_vals (ridx_main_v9 (ix2 b j) 2) 2 j rfl rfl,
    features_ref, features_ref, features_ref]
  rfl

end Cert.ReferenceIdeal.RefValue

end
-- ==== Proof.RefCell.lean ====
/-
  The reference's new hidden state, one column at a time, is the specification's half cell; and its two heads are the
  specification's heads.

  At a column o + q of the hidden state the reference reads its recurrent gate blocks at columns o + q, 896 + o + q and
  1792 + o + q of R, its bias vectors at o + q, and the previous hidden state at o + q; its two logistic functions are written
  out as quotients. Which input projection feeds the three input-gate entries is decided by the side of the joined gate
  blocks the column falls on: the coarse projection below column 448 and the fine one from there on.
-/
import proofs.«144807_j55327768708091_2_alg».proof.Proof.RefProjections

noncomputable section

namespace Cert.ReferenceIdeal.RefValue

open Cert.ReferenceIdeal Cert.ReferenceIdeal.Gen Cert.ReferenceIdeal.Read Idealize.ShloMosaic Idealize.ShloMosaic.ValueIdx GruCell IndexReads

variable (x0 : (⟨S32768x2, .f32⟩ : BufTy).Contents (Elt Ideal)) (x1 : (⟨S32768x896, .f32⟩ : BufTy).Contents (Elt Ideal)) (x2 : (⟨S32768x1, .f32⟩ : BufTy).Contents (Elt Ideal))
  (x3 : (⟨S896x2688, .f32⟩ : BufTy).Contents (Elt Ideal)) (x4 : (⟨S2x1344, .f32⟩ : BufTy).Contents (Elt Ideal)) (x5 : (⟨S3x1344, .f32⟩ : BufTy).Contents (Elt Ideal))
  (x6 : (⟨S448x448, .f32⟩ : BufTy).Contents (Elt Ideal)) (x7 : (⟨S448, .f32⟩ : BufTy).Contents (Elt Ideal)) (x8 : (⟨S448x256, .f32⟩ : BufTy).Contents (Elt Ideal)) (x9 : (⟨S256, .f32⟩ : BufTy).Contents (Elt Ideal))
  (x10 : (⟨S448x448, .f32⟩ : BufTy).Contents (Elt Ideal)) (x11 : (⟨S448, .f32⟩ : BufTy).Contents (Elt Ideal)) (x12 : (⟨S448x256, .f32⟩ : BufTy).Contents (Elt Ideal)) (x13 : (⟨S256, .f32⟩ : BufTy).Contents (Elt Ideal))
  (x14 x15 x16 : (⟨S896, .f32⟩ : BufTy).Contents (Elt Ideal))

/-- The new hidden state at column o + q, given the three input-gate entries there as an input projection I read at q,
    448 + q and 896 + q: the specification's half at offset o. -/
theorem half_ref (b : Fin 32768) (q : Fin 448) (o : Nat) (ho : o + 448 ≤ 896) (I : Fin 1344 → EReal)
    (hIu : val_main_v13 (F := Ideal) x0 x2 x4 x5 (ix2 b (col o q ho)) = I (col 0 q (by omega)))
    (hIr : val_main_v14 (F := Ideal) x0 x2 x4 x5 (ix2 b (col o q ho)) = I (col 448 q (by omega)))
    (hIe : val_main_v15 (F := Ideal) x0 x2 x4 x5 (ix2 b (col o q ho)) = I (col 896 q (by omega))) :
    val_main_v46 (F := Ideal) x0 x1 x2 x3 x4 x5 x14 x15 x16 (ix2 b (col o q ho)) = half (params x3 x4 x5 x6 x7 x8 x9 x10 x11 x12 x13 x14 x15 x16) I (hrow x1 b) o ho q := by
  simp only [val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v3_apply, val_main_v2_apply, val_main_v1_apply, val_main_cst_apply, val_main_cst_0_apply, val_main_cst_1_apply, val_main_cst_2_apply, val_main_cst_3_apply, hIu, hIr, hIe, logistic_written_out]
  rw [ix2_of_vals (idx_main_v1 (ix2 b (col o q ho))) b (col o q (by omega)) rfl rfl,
    ix2_of_vals (idx_main_v2 (ix2 b (col o q ho))) b (col (896 + o) q (by omega)) rfl
      (by show 896 + (o + q.val) = 896 + o + q.val; omega),
    ix2_of_vals (idx_main_v3 (ix2 b (col o q ho))) b (col (1792 + o) q (by omega)) rfl
      (by show 1792 + (o + q.val) = 1792 + o + q.val; omega),
    ix1_of_val (idx_main_v17 (idx_main_v18 (ix2 b (col o q ho)))) (col o q ho) rfl,
    ix1_of_val (idx_main_v27 (idx_main_v28 (ix2 b (col o q ho)))) (col o q ho) rfl,
    ix1_of_val (idx_main_v38 (idx_main_v39 (ix2 b (col o q ho)))) (col o q ho) rfl,
    recur_ref (x1 := x1) (x3 := x3) (x4 := x4) (x5 := x5) (x6 := x6) (x7 := x7) (x8 := x8) (x9 := x9) (x10 := x10) (x11 := x11) (x12 := x12) (x13 := x13) (x14 := x14) (x15 := x15) (x16 := x16), recur_ref (x1 := x1) (x3 := x3) (x4 := x4) (x5 := x5) (x6 := x6) (x7 := x7) (x8 := x8) (x9 := x9) (x10 := x10) (x11 := x11) (x12 := x12) (x13 := x13) (x14 := x14) (x15 := x15) (x16 := x16), recur_ref (x1 := x1) (x3 := x3) (x4 := x4) (x5 := x5) (x6 := x6) (x7 := x7) (x8 := x8) (x9 := x9) (x10 := x10) (x11 := x11) (x12 := x12) (x13 := x13) (x14 := x14) (x15 := x15) (x16 := x16)]
  rfl

/-- The coarse half: below column 448 the joined gate blocks read the coarse projection's blocks. -/
theorem halfLo_ref (b : Fin 32768) (q : Fin 448) :
    val_main_v46 (F := Ideal) x0 x1 x2 x3 x4 x5 x14 x15 x16 (ix2 b (col 0 q (by omega))) = halfLo (params x3 x4 x5 x6 x7 x8 x9 x10 x11 x12 x13 x14 x15 x16) (xrow x0 x2 b) (hrow x1 b) q := by
  unfold halfLo
  refine half_ref (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16) b q 0 (by omega) (inCoarse (params x3 x4 x5 x6 x7 x8 x9 x10 x11 x12 x13 x14 x15 x16) (xrow x0 x2 b)) ?_ ?_ ?_
  · unfold val_main_v13
    refine (JoinLayout.concatenate_cols_left (val_main_v5 (F := Ideal) x0 x4) (val_main_v10 (F := Ideal) x0 x2 x5) _ b (col 0 q (by omega)) q (by show q.val = 0 + q.val; omega)).trans ?_
    rw [val_main_v5_apply,
      ix2_of_vals (idx_main_v5 (ix2 b q)) b (col 0 q (by omega)) rfl (by show q.val = 0 + q.val; omega)]
    exact inCoarse_ref (x0 := x0) (x2 := x2) (x3 := x3) (x4 := x4) (x5 := x5) (x6 := x6) (x7 := x7) (x8 := x8) (x9 := x9) (x10 := x10) (x11 := x11) (x12 := x12) (x13 := x13) (x14 := x14) (x15 := x15) (x16 := x16) b _
  · unfold val_main_v14
    refine (JoinLayout.concatenate_cols_left (val_main_v6 (F := Ideal) x0 x4) (val_main_v11 (F := Ideal) x0 x2 x5) _ b (col 0 q (by omega)) q (by show q.val = 0 + q.val; omega)).trans ?_
    rw [val_main_v6_apply,
      ix2_of_vals (idx_main_v6 (ix2 b q)) b (col 448 q (by omega)) rfl rfl]
    exact inCoarse_ref (x0 := x0) (x2 := x2) (x3 := x3) (x4 := x4) (x5 := x5) (x6 := x6) (x7 := x7) (x8 := x8) (x9 := x9) (x10 := x10) (x11 := x11) (x12 := x12) (x13 := x13) (x14 := x14) (x15 := x15) (x16 := x16) b _
  · unfold val_main_v15
    refine (JoinLayout.concatenate_cols_left (val_main_v7 (F := Ideal) x0 x4) (val_main_v12 (F := Ideal) x0 x2 x5) _ b (col 0 q (by omega)) q (by show q.val = 0 + q.val; omega)).trans ?_
    rw [val_main_v7_apply,
      ix2_of_vals (idx_main_v7 (ix2 b q)) b (col 896 q (by omega)) rfl rfl]
    exact inCoarse_ref (x0 := x0) (x2 := x2) (x3 := x3) (x4 := x4) (x5 := x5) (x6 := x6) (x7 := x7) (x8 := x8) (x9 := x9) (x10 := x10) (x11 := x11) (x12 := x12) (x13 := x13) (x14 := x14) (x15 := x15) (x16 := x16) b _

/-- The fine half: from column 448 on the joined gate blocks read the fine projection's blocks, 448 columns back. -/
theorem halfHi_ref (b : Fin 32768) (q : Fin 448) :
    val_main_v46 (F := Ideal) x0 x1 x2 x3 x4 x5 x14 x15 x16 (ix2 b (col 448 q (by omega))) = halfHi (params x3 x4 x5 x6 x7 x8 x9 x10 x11 x12 x13 x14 x15 x16) (xrow x0 x2 b) (hrow x1 b) q := by
  unfold halfHi
  refine half_ref (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16) b q 448 (by omega) (inFine (params x3 x4 x5 x6 x7 x8 x9 x10 x11 x12 x13 x14 x15 x16) (xrow x0 x2 b)) ?_ ?_ ?_
  · unfold val_main_v13
    refine (JoinLayout.concatenate_cols_right (val_main_v5 (F := Ideal) x0 x4) (val_main_v10 (F := Ideal) x0 x2 x5) _ b (col 448 q (by omega)) q (by show q.val + 448 = 448 + q.val; omega)).trans ?_
    rw [val_main_v10_apply,
      ix2_of_vals (idx_main_v10 (ix2 b q)) b (col 0 q (by omega)) rfl (by show q.val = 0 + q.val; omega)]
    exact inFine_ref (x0 := x0) (x2 := x2) (x3 := x3) (x4 := x4) (x5 := x5) (x6 := x6) (x7 := x7) (x8 := x8) (x9 := x9) (x10 := x10) (x11 := x11) (x12 := x12) (x13 := x13) (x14 := x14) (x15 := x15) (x16 := x16) b _
  · unfold val_main_v14
    refine (JoinLayout.concatenate_cols_right (val_main_v6 (F := Ideal) x0 x4) (val_main_v11 (F := Ideal) x0 x2 x5) _ b (col 448 q (by omega)) q (by show q.val + 448 = 448 + q.val; omega)).trans ?_
    rw [val_main_v11_apply,
      ix2_of_vals (idx_main_v11 (ix2 b q)) b (col 448 q (by omega)) rfl rfl]
    exact inFine_ref (x0 := x0) (x2 := x2) (x3 := x3) (x4 := x4) (x5 := x5) (x6 := x6) (x7 := x7) (x8 := x8) (x9 := x9) (x10 := x10) (x11 := x11) (x12 := x12) (x13 := x13) (x14 := x14) (x15 := x15) (x16 := x16) b _
  · unfold val_main_v15
    refine (JoinLayout.concatenate_cols_right (val_main_v7 (F := Ideal) x0 x4) (val_main_v12 (F := Ideal) x0 x2 x5) _ b (col 448 q (by omega)) q (by show q.val + 448 = 448 + q.val; omega)).trans ?_
    rw [val_main_v12_apply,
      ix2_of_vals (idx_main_v12 (ix2 b q)) b (col 896 q (by omega)) rfl rfl]
    exact inFine_ref (x0 := x0) (x2 := x2) (x3 := x3) (x4 := x4) (x5 := x5) (x6 := x6) (x7 := x7) (x8 := x8) (x9 := x9) (x10 := x10) (x11 := x11) (x12 := x12) (x13 := x13) (x14 := x14) (x15 := x15) (x16 := x16) b _

/-- The new hidden state at any column: the specification's hidden row. -/
theorem hidden_ref (b : Fin 32768) (j : Fin 896) :
    val_main_v46 (F := Ideal) x0 x1 x2 x3 x4 x5 x14 x15 x16 (ix2 b j) = hidden (params x3 x4 x5 x6 x7 x8 x9 x10 x11 x12 x13 x14 x15 x16) (xrow x0 x2 b) (hrow x1 b) j := by
  by_cases h : j.val < 448
  · rw [hidden_lo _ _ _ j ⟨j.val, h⟩ rfl, ← halfLo_ref (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16) b ⟨j.val, h⟩]
    exact congrArg _ (congrArg (ix2 b) (Fin.ext (by show j.val = 0 + j.val; omega)))
  · have hj := j.isLt
    rw [hidden_hi _ _ _ j ⟨j.val - 448, by omega⟩ (by show j.val = 448 + (j.val - 448); omega),
      ← halfHi_ref (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16) b ⟨j.val - 448, by omega⟩]
    exact congrArg _ (congrArg (ix2 b) (Fin.ext (by show j.val = 448 + (j.val - 448); omega)))

/-- The coarse head at (b, n). -/
theorem coarse_ref (b : Fin 32768) (n : Fin 256) :
    val_main_v57 (F := Ideal) x0 x1 x2 x3 x4 x5 x6 x7 x8 x9 x14 x15 x16 (ix2 b n) = coarse (params x3 x4 x5 x6 x7 x8 x9 x10 x11 x12 x13 x14 x15 x16) (xrow x0 x2 b) (hrow x1 b) n := by
  unfold coarse head
  rw [val_main_v57_apply, val_main_v54_apply, val_main_v56_apply, val_main_v55_apply]
  refine congrArg₂ (· + ·) (Finset.sum_congr rfl fun k _ => ?_)
    (congrArg x9 (ix1_of_val (idx_main_v55 (idx_main_v56 (ix2 b n))) n rfl))
  rw [ix2_of_vals (lidx_main_v54 (ix2 b n) k) b k rfl rfl, ix2_of_vals (ridx_main_v54 (ix2 b n) k) k n rfl rfl,
    val_main_v53_apply, val_main_v52_apply, val_main_call0_v0_apply, val_main_call0_cst_apply,
    val_main_v51_apply, val_main_v50_apply, val_main_v49_apply]
  refine congrArg (· * x8 (ix2 k n)) (congrArg (max · zeroW) (congrArg₂ (· + ·) (Finset.sum_congr rfl fun l _ => ?_)
    (congrArg x7 (ix1_of_val (idx_main_v50 (idx_main_v51 (ix2 b k))) k rfl))))
  rw [ix2_of_vals (lidx_main_v49 (ix2 b k) l) b l rfl rfl, ix2_of_vals (ridx_main_v49 (ix2 b k) l) l k rfl rfl,
    val_main_v47_apply,
    ix2_of_vals (idx_main_v47 (ix2 b l)) b (col 0 l (by omega)) rfl (by show l.val = 0 + l.val; omega),
    halfLo_ref (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16)]
  rfl

/-- The fine head at (b, n). -/
theorem fine_ref (b : Fin 32768) (n : Fin 256) :
    val_main_v66 (F := Ideal) x0 x1 x2 x3 x4 x5 x10 x11 x12 x13 x14 x15 x16 (ix2 b n) = fine (params x3 x4 x5 x6 x7 x8 x9 x10 x11 x12 x13 x14 x15 x16) (xrow x0 x2 b) (hrow x1 b) n := by
  unfold fine head
  rw [val_main_v66_apply, val_main_v63_apply, val_main_v65_apply, val_main_v64_apply]
  refine congrArg₂ (· + ·) (Finset.sum_congr rfl fun k _ => ?_)
    (congrArg x13 (ix1_of_val (idx_main_v64 (idx_main_v65 (ix2 b n))) n rfl))
  rw [ix2_of_vals (lidx_main_v63 (ix2 b n) k) b k rfl rfl, ix2_of_vals (ridx_main_v63 (ix2 b n) k) k n rfl rfl,
    val_main_v62_apply, val_main_v61_apply, val_main_call1_v0_apply, val_main_call1_cst_apply,
    val_main_v60_apply, val_main_v59_apply, val_main_v58_apply]
  refine congrArg (· * x12 (ix2 k n)) (congrArg (max · zeroW) (congrArg₂ (· + ·) (Finset.sum_congr rfl fun l _ => ?_)
    (congrArg x11 (ix1_of_val (idx_main_v59 (idx_main_v60 (ix2 b k))) k rfl))))
  rw [ix2_of_vals (lidx_main_v58 (ix2 b k) l) b l rfl rfl, ix2_of_vals (ridx_main_v58 (ix2 b k) l) l k rfl rfl,
    val_main_v48_apply,
    ix2_of_vals (idx_main_v48 (ix2 b l)) b (col 448 l (by omega)) rfl rfl,
    halfHi_ref (x0 := x0) (x1 := x1) (x2 := x2) (x3 := x3) (x4 := x4) (x5 := x5) (x6 := x6) (x7 := x7) (x8 := x8) (x9 := x9) (x10 := x10) (x11 := x11) (x12 := x12) (x13 := x13) (x14 := x14) (x15 := x15) (x16 := x16)]
  rfl

end Cert.ReferenceIdeal.RefValue

end
-- ==== Proof.RefArrays.lean ====
/-
  The reference's three results, as arrays: the specification's coarse, fine and hidden arrays of its argument arrays.
  Each entry (b, j) is the row statement at row b and column j; an index of a matrix is the pair of its coordinates.
-/
import proofs.«144807_j55327768708091_2_alg».proof.Proof.RefCell

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx GruCell IndexReads

variable (m : (ℓ : Loc nD τ sig) → Buf (Elt Ideal) ℓ)

/-- The cell's parameters as the reference's argument arrays on core c. -/
def memParams (c : Dev nD) : Params :=
  params (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))

/-- The first result: the coarse output array. -/
theorem res_coarse (c : Dev nD) :
    Cert.ReferenceIdeal.Value.res_main_v57 m c
      = coarseArr (memParams m c) (m ((c.tc : Thread nD τ).loc main_arg0)) (m ((c.tc : Thread nD τ).loc main_arg2)) (m ((c.tc : Thread nD τ).loc main_arg1)) :=
  (val_main_v57_eq m c).trans (funext fun i => by
    rw [eq_ix2 i]
    exact coarse_ref (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (x13 := (m ((c.tc : Thread nD τ).loc main_arg13))) (x14 := (m ((c.tc : Thread nD τ).loc main_arg14))) (x15 := (m ((c.tc : Thread nD τ).loc main_arg15))) (x16 := (m ((c.tc : Thread nD τ).loc main_arg16))) (i 0) (i 1))

/-- The second result: the fine output array. -/
theorem res_fine (c : Dev nD) :
    Cert.ReferenceIdeal.Value.res_main_v66 m c
      = fineArr (memParams m c) (m ((c.tc : Thread nD τ).loc main_arg0)) (m ((c.tc : Thread nD τ).loc main_arg2)) (m ((c.tc : Thread nD τ).loc main_arg1)) :=
  (val_main_v66_eq m c).trans (funext fun i => by
    rw [eq_ix2 i]
    exact fine_ref (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (x13 := (m ((c.tc : Thread nD τ).loc main_arg13))) (x14 := (m ((c.tc : Thread nD τ).loc main_arg14))) (x15 := (m ((c.tc : Thread nD τ).loc main_arg15))) (x16 := (m ((c.tc : Thread nD τ).loc main_arg16))) (i 0) (i 1))

/-- The third result: the new hidden state. -/
theorem res_hidden (c : Dev nD) :
    Cert.ReferenceIdeal.Value.res_main_v46 m c
      = hiddenArr (memParams m c) (m ((c.tc : Thread nD τ).loc main_arg0)) (m ((c.tc : Thread nD τ).loc main_arg2)) (m ((c.tc : Thread nD τ).loc main_arg1)) :=
  (val_main_v46_eq m c).trans (funext fun i => by
    rw [eq_ix2 i]
    exact hidden_ref (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (x13 := (m ((c.tc : Thread nD τ).loc main_arg13))) (x14 := (m ((c.tc : Thread nD τ).loc main_arg14))) (x15 := (m ((c.tc : Thread nD τ).loc main_arg15))) (x16 := (m ((c.tc : Thread nD τ).loc main_arg16))) (i 0) (i 1))

end Cert.ReferenceIdeal.RefValue

end
-- ==== Proof.lean ====
/-
  The kernel and its reference compute one dual-path gated recurrent cell, and so end with equal results.

  The cell acts on each of the 32768 batch rows alone (Proof/CellSpec.lean states it for one row: the recurrent product, the
  two input projections, the two halves of the new hidden state with their logistic and hyperbolic-tangent gates, and the two
  output heads). The kernel works on 64 blocks of 512 rows: its body, read at one row of a block, is the cell at that row
  (Proof/KernelPayloads.lean, KernelCell.lean, KernelPoint.lean), and block t of each output is rows 512 · t .. 512 · t + 511
  of the specification's array, the blocks covering every row (Proof/KernelArrays.lean). The reference computes all rows at
  once through whole-array products, column slices and column joins; read at one row and column it is the same cell
  (Proof/RefProjections.lean, RefCell.lean, RefArrays.lean).

  What joins the two sides, on the extended reals:
    • narrowing a float to a shorter format is the identity, and a matrix product into a zero accumulator is the sum over
      the contracted position, so the kernel's products of narrowed blocks are the reference's products;
    • the kernel writes the input projections as explicit sums of two and three products where the reference contracts an
      axis of extent 2 or 3: the same terms in the same order;
    • the kernel applies the logistic function as one operation where the reference writes 1 / (1 + e^(−x)): one function,
      at the infinities too, the float word of the two ones being the extended real one;
    • the kernel cuts the gate blocks out of the products by column slices at fixed offsets where the reference slices and
      rejoins whole arrays: the same columns.
  No step distributes a product over a sum or cancels, so nothing here needs an input to be finite; the precondition is
  never opened. The idealization rewrote no operation of the kernel, so there is nothing to preserve beyond the text itself.
-/
import proofs.«144807_j55327768708091_2_alg».proof.Defs
import proofs.«144807_j55327768708091_2_alg».proof.Proof.Gen.Kernel
import proofs.«144807_j55327768708091_2_alg».proof.Proof.Gen.Kernel.Frame
import proofs.«144807_j55327768708091_2_alg».proof.Proof.Gen.KernelIdeal
import proofs.«144807_j55327768708091_2_alg».proof.Proof.Gen.KernelIdeal.Frame
import proofs.«144807_j55327768708091_2_alg».proof.Proof.Gen.KernelIdeal.Value
import proofs.«144807_j55327768708091_2_alg».proof.Proof.Gen.ReferenceIdeal
import proofs.«144807_j55327768708091_2_alg».proof.Proof.Gen.ReferenceIdeal.Run
import proofs.«144807_j55327768708091_2_alg».proof.Proof.Gen.ReferenceIdeal.Read
import proofs.«144807_j55327768708091_2_alg».proof.Proof.Gen.Pre_finite_inputs
import proofs.«144807_j55327768708091_2_alg».proof.Proof.KernelArrays
import proofs.«144807_j55327768708091_2_alg».proof.Proof.RefArrays

noncomputable section

namespace Cert.Proof

open Idealize.ShloMosaic Idealize.ShloMosaic.TcCoe Idealize.SL.Sem GruCell

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- No operation of the kernel was rewritten. -/
theorem preserves : Cert.preserves_Kernel_KernelIdeal := trivial

/-- From memories that agree on the arguments, the cell's parameters read from either memory are the same. -/
theorem params_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RefValue.memParams m' c = Cert.KernelIdeal.Arrays.params m c := by
  obtain ⟨h0, h1, h2, h3, h4, h5, h6, h7, h8, h9, h10, h11, h12, h13, h14, h15, h16⟩ := h
  unfold Cert.ReferenceIdeal.RefValue.memParams Cert.ReferenceIdeal.RefValue.params Cert.KernelIdeal.Arrays.params
  rw [h3, h4, h5, h6, h7, h8, h9, h10, h11, h12, h13, h14, h15, h16]

/-- The reference's first result is the specification's coarse array of the kernel's arguments. -/
theorem coarse_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v57 m' c
      = coarseArr (Cert.KernelIdeal.Arrays.params m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) := by
  rw [Cert.ReferenceIdeal.RefValue.res_coarse m' c, params_agree m m' c h]
  obtain ⟨h0, h1, h2, -⟩ := h
  rw [h0, h1, h2]

/-- The reference's second result is the specification's fine array of the kernel's arguments. -/
theorem fine_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v66 m' c
      = fineArr (Cert.KernelIdeal.Arrays.params m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) := by
  rw [Cert.ReferenceIdeal.RefValue.res_fine m' c, params_agree m m' c h]
  obtain ⟨h0, h1, h2, -⟩ := h
  rw [h0, h1, h2]

/-- The reference's third result is the specification's hidden array of the kernel's arguments. -/
theorem hidden_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v46 m' c
      = hiddenArr (Cert.KernelIdeal.Arrays.params m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) := by
  rw [Cert.ReferenceIdeal.RefValue.res_hidden m' c, params_agree m m' c h]
  obtain ⟨h0, h1, h2, -⟩ := h
  rw [h0, h1, h2]

/-- From memories that agree on the arguments both programs end at the specification's three arrays of those arguments. -/
theorem algebraic : Cert.algebraic_KernelIdeal_ReferenceIdeal := by
  intro m ρ m' ρ' _ hagree
  refine ⟨_, _, _, Cert.KernelIdeal.Arrays.run m ρ, ?_⟩
  exact (θ_run Cert.ReferenceIdeal.defs _ _).mono
    (fun _ h c => ⟨(h c).1.trans (coarse_agree m m' c (hagree c)), (h c).2.1.trans (fine_agree m m' c (hagree c)),
      (h c).2.2.1.trans (hidden_agree m m' c (hagree c)), (h c).2.2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
